-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x262144x5 : Shape := ⟨3, ![2, 262144, 5]⟩
abbrev S262144x64 : Shape := ⟨2, ![262144, 64]⟩
abbrev S256x5 : Shape := ⟨2, ![256, 5]⟩
abbrev S256x64 : Shape := ⟨2, ![256, 64]⟩
abbrev S256 : Shape := ⟨1, ![256]⟩
abbrev S64x256 : Shape := ⟨2, ![64, 256]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S3x16 : Shape := ⟨2, ![3, 16]⟩
abbrev S3 : Shape := ⟨1, ![3]⟩
abbrev S_ : Shape := ⟨0, ![]⟩

class Facts : Prop where
  bcast_S_S2x262144x5 : S_.BroadcastsInDim S2x262144x5 (![] : Fin 0 → Fin S2x262144x5.rank)
  reducesTo_S2x262144x5_S_d0_1_2 : S2x262144x5.ReducesTo [0, 1, 2] S_
  h_S_ : 0 < S_.numel
  bcast_S_S262144x64 : S_.BroadcastsInDim S262144x64 (![] : Fin 0 → Fin S262144x64.rank)
  reducesTo_S262144x64_S_d0_1 : S262144x64.ReducesTo [0, 1] S_
  bcast_S_S256x5 : S_.BroadcastsInDim S256x5 (![] : Fin 0 → Fin S256x5.rank)
  reducesTo_S256x5_S_d0_1 : S256x5.ReducesTo [0, 1] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S3x16 : S_.BroadcastsInDim S3x16 (![] : Fin 0 → Fin S3x16.rank)
  reducesTo_S3x16_S_d0_1 : S3x16.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_arg14 : FVec F S16 .f32) (main_arg15 : FVec F S3x16 .f32) (main_arg16 : FVec F S3 .f32) (main_v63 : IVec S_ 1) (main_v67 : IVec S_ 1) : IVec S_ 1 :=
  let main_v68 : IVec S_ 1 := andi main_v63 main_v67
  let main_v69 : FVec F S16 .f32 := Host.absf main_arg14
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_v74 : FVec F S3x16 .f32 := Host.absf main_arg15
  let main_cst_28 : FVec F S_ .f32 := constant S_ .f32 0x7F800000#32
  let main_v75 : FVec F S3x16 .f32 := broadcastInDim S3x16 ![] bcast_S_S3x16 main_cst_28
  let main_v76 : IVec S3x16 1 := cmpf .olt main_v74 main_v75
  let main_c_29 : IVec S_ 1 := constantI S_ 1 1#1
  let main_v77 : IVec S_ 1 := (fun x v => Host.reduce IntOp.andi x v reducesTo_S3x16_S_d0_1 h_S_) main_v76 main_c_29
  let main_v78 : IVec S_ 1 := andi main_v73 main_v77
  let main_v79 : FVec F S3 .f32 := Host.absf main_arg16
  let main_cst_30 : FVec F S_ .f32 := constant S_ .f32 0x7F800000#32
  let main_v80 : FVec F S3 .f32 := broadcastInDim S3 ![] bcast_S_S3 main_cst_30
  let main_v81 : IVec S3 1 := cmpf .olt main_v79 main_v80
  let main_c_31 : IVec S_ 1 := constantI S_ 1 1#1
  let main_v82 : IVec S_ 1 := (fun x v => Host.reduce IntOp.andi x v reducesTo_S3_S_d0 h_S_) main_v81 main_c_31
  let main_v83 : IVec S_ 1 := andi main_v78 main_v82
  main_v83

def fn_part3 {F : FTy → Type} [FloatOps F] (main_arg11 : FVec F S32x64 .f32) (main_arg12 : FVec F S32 .f32) (main_arg13 : FVec F S16x32 .f32) (main_arg14 : FVec F S16 .f32) (main_arg15 : FVec F S3x16 .f32) (main_arg16 : FVec F S3 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S32x64 .f32 := Host.absf main_arg11
  let main_cst_20 : FVec F S_ .f32 := constant S_ .f32 0x7F800000#32
  let main_v55 : FVec F S32x64 .f32 := broadcastInDim S32x64 ![] bcast_S_S32x64 main_cst_20
  let main_v56 : IVec S32x64 1 := cmpf .olt main_v54 main_v55
  let main_c_21 : IVec S_ 1 := constantI S_ 1 1#1
  let main_v57 : IVec S_ 1 := (fun x v => Host.reduce IntOp.andi x v reducesTo_S32x64_S_d0_1 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S16x32 .f32 := Host.absf main_arg13
  let main_cst_24 : FVec F S_ .f32 := constant S_ .f32 0x7F800000#32
  let main_v65 : FVec F S16x32 .f32 := broadcastInDim S16x32 ![] bcast_S_S16x32 main_cst_24
  let main_v66 : IVec S16x32 1 := cmpf .olt main_v64 main_v65
  let main_c_25 : IVec S_ 1 := constantI S_ 1 1#1
  let main_v67 : IVec S_ 1 := (fun x v => Host.reduce IntOp.andi x v reducesTo_S16x32_S_d0_1 h_S_) main_v66 main_c_25
  fn_part4 (F := F) main_arg14 main_arg15 main_arg16 main_v63 main_v67

def fn_part2 {F : FTy → Type} [FloatOps F] (main_arg7 : FVec F S256x64 .f32) (main_arg8 : FVec F S256 .f32) (main_arg9 : FVec F S64x256 .f32) (main_arg10 : FVec F S64 .f32) (main_arg11 : FVec F S32x64 .f32) (main_arg12 : FVec F S32 .f32) (main_arg13 : FVec F S16x32 .f32) (main_arg14 : FVec F S16 .f32) (main_arg15 : FVec F S3x16 .f32) (main_arg16 : FVec F S3 .f32) (main_v33 : IVec S_ 1) : IVec S_ 1 :=
  let main_v34 : FVec F S256x64 .f32 := Host.absf main_arg7
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S64x256 .f32 := Host.absf main_arg9
  let main_cst_16 : FVec F S_ .f32 := constant S_ .f32 0x7F800000#32
  let main_v45 : FVec F S64x256 .f32 := broadcastInDim S64x256 ![] bcast_S_S64x256 main_cst_16
  let main_v46 : IVec S64x256 1 := cmpf .olt main_v44 main_v45
  let main_c_17 : IVec S_ 1 := constantI S_ 1 1#1
  let main_v47 : IVec S_ 1 := (fun x v => Host.reduce IntOp.andi x v reducesTo_S64x256_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_v48 main_v49 main_v50

def fn_part1 {F : FTy → Type} [FloatOps F] (main_arg4 : FVec F S256x64 .f32) (main_arg5 : FVec F S256 .f32) (main_arg6 : FVec F S256 .f32) (main_arg7 : FVec F S256x64 .f32) (main_arg8 : FVec F S256 .f32) (main_arg9 : FVec F S64x256 .f32) (main_arg10 : FVec F S64 .f32) (main_arg11 : FVec F S32x64 .f32) (main_arg12 : FVec F S32 .f32) (main_arg13 : FVec F S16x32 .f32) (main_arg14 : FVec F S16 .f32) (main_arg15 : FVec F S3x16 .f32) (main_arg16 : FVec F S3 .f32) (main_v13 : IVec S_ 1) (main_v16 : IVec S256x5 1) : IVec S_ 1 :=
  let main_c_5 : IVec S_ 1 := constantI S_ 1 1#1
  let main_v17 : IVec S_ 1 := (fun x v => Host.reduce IntOp.andi x v reducesTo_S256x5_S_d0_1 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S2x262144x5 .f32) (main_arg1 : FVec F S262144x64 .f32) (main_arg2 : FVec F S262144x64 .f32) (main_arg3 : FVec F S256x5 .f32) (main_arg4 : FVec F S256x64 .f32) (main_arg5 : FVec F S256 .f32) (main_arg6 : FVec F S256 .f32) (main_arg7 : FVec F S256x64 .f32) (main_arg8 : FVec F S256 .f32) (main_arg9 : FVec F S64x256 .f32) (main_arg10 : FVec F S64 .f32) (main_arg11 : FVec F S32x64 .f32) (main_arg12 : FVec F S32 .f32) (main_arg13 : FVec F S16x32 .f32) (main_arg14 : FVec F S16 .f32) (main_arg15 : FVec F S3x16 .f32) (main_arg16 : FVec F S3 .f32) : IVec S_ 1 :=
  let main_v0 : FVec F S2x262144x5 .f32 := Host.absf main_arg0
  let main_cst : FVec F S_ .f32 := constant S_ .f32 0x7F800000#32
  let main_v1 : FVec F S2x262144x5 .f32 := broadcastInDim S2x262144x5 ![] bcast_S_S2x262144x5 main_cst
  let main_v2 : IVec S2x262144x5 1 := cmpf .olt main_v0 main_v1
  let main_c : IVec S_ 1 := constantI S_ 1 1#1
  let main_v3 : IVec S_ 1 := (fun x v => Host.reduce IntOp.andi x v reducesTo_S2x262144x5_S_d0_1_2 h_S_) main_v2 main_c
  let main_v4 : FVec F S262144x64 .f32 := Host.absf main_arg1
  let main_cst_0 : FVec F S_ .f32 := constant S_ .f32 0x7F800000#32
  let main_v5 : FVec F S262144x64 .f32 := broadcastInDim S262144x64 ![] bcast_S_S262144x64 main_cst_0
  let main_v6 : IVec S262144x64 1 := cmpf .olt main_v4 main_v5
  let main_c_1 : IVec S_ 1 := constantI S_ 1 1#1
  let main_v7 : IVec S_ 1 := (fun x v => Host.reduce IntOp.andi x v reducesTo_S262144x64_S_d0_1 h_S_) main_v6 main_c_1
  let main_v8 : IVec S_ 1 := andi main_v3 main_v7
  let main_v9 : FVec F S262144x64 .f32 := Host.absf main_arg2
  let main_cst_2 : FVec F S_ .f32 := constant S_ .f32 0x7F800000#32
  let main_v10 : FVec F S262144x64 .f32 := broadcastInDim S262144x64 ![] bcast_S_S262144x64 main_cst_2
  let main_v11 : IVec S262144x64 1 := cmpf .olt main_v9 main_v10
  let main_c_3 : IVec S_ 1 := constantI S_ 1 1#1
  let main_v12 : IVec S_ 1 := (fun x v => Host.reduce IntOp.andi x v reducesTo_S262144x64_S_d0_1 h_S_) main_v11 main_c_3
  let main_v13 : IVec S_ 1 := andi main_v8 main_v12
  let main_v14 : FVec F S256x5 .f32 := Host.absf main_arg3
  let main_cst_4 : FVec F S_ .f32 := constant S_ .f32 0x7F800000#32
  let main_v15 : FVec F S256x5 .f32 := broadcastInDim S256x5 ![] bcast_S_S256x5 main_cst_4
  let main_v16 : IVec S256x5 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S2x262144x5 : Shape := ⟨3, ![2, 262144, 5]⟩
abbrev S262144x64 : Shape := ⟨2, ![262144, 64]⟩
abbrev S256x5 : Shape := ⟨2, ![256, 5]⟩
abbrev S256x64 : Shape := ⟨2, ![256, 64]⟩
abbrev S256 : Shape := ⟨1, ![256]⟩
abbrev S64x256 : Shape := ⟨2, ![64, 256]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S3x16 : Shape := ⟨2, ![3, 16]⟩
abbrev S3 : Shape := ⟨1, ![3]⟩
abbrev S2x5x262144 : Shape := ⟨3, ![2, 5, 262144]⟩
abbrev S5x256 : Shape := ⟨2, ![5, 256]⟩
abbrev S1x256 : Shape := ⟨2, ![1, 256]⟩
abbrev S1x64 : Shape := ⟨2, ![1, 64]⟩
abbrev S64x32 : Shape := ⟨2, ![64, 32]⟩
abbrev S1x32 : Shape := ⟨2, ![1, 32]⟩
abbrev S32x16 : Shape := ⟨2, ![32, 16]⟩
abbrev S1x16 : Shape := ⟨2, ![1, 16]⟩
abbrev S16x3 : Shape := ⟨2, ![16, 3]⟩
abbrev S1x3 : Shape := ⟨2, ![1, 3]⟩
abbrev S262144x3 : Shape := ⟨2, ![262144, 3]⟩
abbrev S2x5x4096 : Shape := ⟨3, ![2, 5, 4096]⟩
abbrev S4096x64 : Shape := ⟨2, ![4096, 64]⟩
abbrev S4096x3 : Shape := ⟨2, ![4096, 3]⟩
abbrev S1x5x4096 : Shape := ⟨3, ![1, 5, 4096]⟩
abbrev S5x4096 : Shape := ⟨2, ![5, 4096]⟩
abbrev S4096x256 : Shape := ⟨2, ![4096, 256]⟩
abbrev S4096x32 : Shape := ⟨2, ![4096, 32]⟩
abbrev S4096x16 : Shape := ⟨2, ![4096, 16]⟩

abbrev nBuf : Space → Nat
  | .hbm => 40
  | .vmem => 21
  | .smem => 0
  | _ => 0

abbrev bufTy : (tb : Table) → Fin (tcTables nBuf tb) → BufTy
  | .hbm, ⟨0, _⟩ => ⟨S2x262144x5, .f32⟩
  | .hbm, ⟨1, _⟩ => ⟨S262144x64, .f32⟩
  | .hbm, ⟨2, _⟩ => ⟨S262144x64, .f32⟩
  | .hbm, ⟨3, _⟩ => ⟨S256x5, .f32⟩
  | .hbm, ⟨4, _⟩ => ⟨S256x64, .f32⟩
  | .hbm, ⟨5, _⟩ => ⟨S256, .f32⟩
  | .hbm, ⟨6, _⟩ => ⟨S256, .f32⟩
  | .hbm, ⟨7, _⟩ => ⟨S256x64, .f32⟩
  | .hbm, ⟨8, _⟩ => ⟨S256, .f32⟩
  | .hbm, ⟨9, _⟩ => ⟨S64x256, .f32⟩
  | .hbm, ⟨10, _⟩ => ⟨S64, .f32⟩
  | .hbm, ⟨11, _⟩ => ⟨S32x64, .f32⟩
  | .hbm, ⟨12, _⟩ => ⟨S32, .f32⟩
  | .hbm, ⟨13, _⟩ => ⟨S16x32, .f32⟩
  | .hbm, ⟨14, _⟩ => ⟨S16, .f32⟩
  | .hbm, ⟨15, _⟩ => ⟨S3x16, .f32⟩
  | .hbm, ⟨16, _⟩ => ⟨S3, .f32⟩
  | .hbm, ⟨17, _⟩ => ⟨S2x5x262144, .f32⟩
  | .hbm, ⟨18, _⟩ => ⟨S5x256, .f32⟩
  | .hbm, ⟨19, _⟩ => ⟨S5x256, .bf16⟩
  | .hbm, ⟨20, _⟩ => ⟨S64x256, .f32⟩
  | .hbm, ⟨21, _⟩ => ⟨S64x256, .bf16⟩
  | .hbm, ⟨22, _⟩ => ⟨S256, .f32⟩
  | .hbm, ⟨23, _⟩ => ⟨S1x256, .f32⟩
  | .hbm, ⟨24, _⟩ => ⟨S64x256, .f32⟩
  | .hbm, ⟨25, _⟩ => ⟨S64x256, .bf16⟩
  | .hbm, ⟨26, _⟩ => ⟨S1x256, .f32⟩
  | .hbm, ⟨27, _⟩ => ⟨S256x64, .f32⟩
  | .hbm, ⟨28, _⟩ => ⟨S256x64, .bf16⟩
  | .hbm, ⟨29, _⟩ => ⟨S1x64, .f32⟩
  | .hbm, ⟨30, _⟩ => ⟨S64x32, .f32⟩
  | .hbm, ⟨31, _⟩ => ⟨S64x32, .bf16⟩
  | .hbm, ⟨32, _⟩ => ⟨S1x32, .f32⟩
  | .hbm, ⟨33, _⟩ => ⟨S32x16, .f32⟩
  | .hbm, ⟨34, _⟩ => ⟨S32x16, .bf16⟩
  | .hbm, ⟨35, _⟩ => ⟨S1x16, .f32⟩
  | .hbm, ⟨36, _⟩ => ⟨S16x3, .f32⟩
  | .hbm, ⟨37, _⟩ => ⟨S16x3, .bf16⟩
  | .hbm, ⟨38, _⟩ => ⟨S1x3, .f32⟩
  | .hbm, ⟨39, _⟩ => ⟨S262144x3, .f32⟩
  | .local _ .vmem, ⟨0, _⟩ => ⟨S2x5x4096, .f32⟩
  | .local _ .vmem, ⟨1, _⟩ => ⟨S2x5x4096, .f32⟩
  | .local _ .vmem, ⟨2, _⟩ => ⟨S4096x64, .f32⟩
  | .local _ .vmem, ⟨3, _⟩ => ⟨S4096x64, .f32⟩
  | .local _ .vmem, ⟨4, _⟩ => ⟨S4096x64, .f32⟩
  | .local _ .vmem, ⟨5, _⟩ => ⟨S4096x64, .f32⟩
  | .local _ .vmem, ⟨6, _⟩ => ⟨S5x256, .bf16⟩
  | .local _ .vmem, ⟨7, _⟩ => ⟨S64x256, .bf16⟩
  | .local _ .vmem, ⟨8, _⟩ => ⟨S1x256, .f32⟩
  | .local _ .vmem, ⟨9, _⟩ => ⟨S64x256, .bf16⟩
  | .local _ .vmem, ⟨10, _⟩ => ⟨S1x256, .f32⟩
  | .local _ .vmem, ⟨11, _⟩ => ⟨S256x64, .bf16⟩
  | .local _ .vmem, ⟨12, _⟩ => ⟨S1x64, .f32⟩
  | .local _ .vmem, ⟨13, _⟩ => ⟨S64x32, .bf16⟩
  | .local _ .vmem, ⟨14, _⟩ => ⟨S1x32, .f32⟩
  | .local _ .vmem, ⟨15, _⟩ => ⟨S32x16, .bf16⟩
  | .local _ .vmem, ⟨16, _⟩ => ⟨S1x16, .f32⟩
  | .local _ .vmem, ⟨17, _⟩ => ⟨S16x3, .bf16⟩
  | .local _ .vmem, ⟨18, _⟩ => ⟨S1x3, .f32⟩
  | .local _ .vmem, ⟨19, _⟩ => ⟨S4096x3, .f32⟩
  | .local _ .vmem, ⟨20, _⟩ => ⟨S4096x3, .f32⟩
  | _, _ => ⟨S2x262144x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x5x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x32 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x16 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x3 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x3 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S4096x3 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  transposes_S2x262144x5_S2x5x262144_0_2_1 : S2x262144x5.Transposes [0, 2, 1] S2x5x262144
  transposes_S256x5_S5x256_1_0 : S256x5.Transposes [1, 0] S5x256
  bitsLt_bf16_f32 : FTy.bits .bf16 < FTy.bits .f32
  transposes_S256x64_S64x256_1_0 : S256x64.Transposes [1, 0] S64x256
  shapeCasts_S256_S1x256 : S256.ShapeCasts S1x256
  transposes_S64x256_S256x64_1_0 : S64x256.Transposes [1, 0] S256x64
  shapeCasts_S64_S1x64 : S64.ShapeCasts S1x64
  transposes_S32x64_S64x32_1_0 : S32x64.Transposes [1, 0] S64x32
  shapeCasts_S32_S1x32 : S32.ShapeCasts S1x32
  transposes_S16x32_S32x16_1_0 : S16x32.Transposes [1, 0] S32x16
  shapeCasts_S16_S1x16 : S16.ShapeCasts S1x16
  transposes_S3x16_S16x3_1_0 : S3x16.Transposes [1, 0] S16x3
  shapeCasts_S3_S1x3 : S3.ShapeCasts S1x3
  inb_S2x5x4096_S1x5x4096_0_0_0 : ∀ a, (![0, 0, 0] : Fin 3 → Nat) a + S1x5x4096.size a ≤ S2x5x4096.size a
  h_S1x5x4096 : 0 < S1x5x4096.numel
  shapeCasts_S1x5x4096_S5x4096 : S1x5x4096.ShapeCasts S5x4096
  inb_S2x5x4096_S1x5x4096_1_0_0 : ∀ a, (![1, 0, 0] : Fin 3 → Nat) a + S1x5x4096.size a ≤ S2x5x4096.size a
  inb_S4096x64_S4096x64_0_0 : ∀ a, (![0, 0] : Fin 2 → Nat) a + S4096x64.size a ≤ S4096x64.size a
  h_S4096x64 : 0 < S4096x64.numel
  inb_S5x256_S5x256_0_0 : ∀ a, (![0, 0] : Fin 2 → Nat) a + S5x256.size a ≤ S5x256.size a
  h_S5x256 : 0 < S5x256.numel
  shapeCasts_S5x256_S5x256 : S5x256.ShapeCasts S5x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  slices_S4096x256_o0_128_S4096x64 : S4096x256.Slices ![0, 128] S4096x64
  slices_S4096x256_o0_0_S4096x64 : S4096x256.Slices ![0, 0] S4096x64
  slices_S4096x256_o0_64_S4096x64 : S4096x256.Slices ![0, 64] S4096x64
  slices_S4096x256_o0_192_S4096x64 : S4096x256.Slices ![0, 192] S4096x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  inb_S16x3_S16x3_0_0 : ∀ a, (![0, 0] : Fin 2 → Nat) a + S16x3.size a ≤ S16x3.size a
  h_S16x3 : 0 < S16x3.numel
  shapeCasts_S16x3_S16x3 : S16x3.ShapeCasts S16x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S4096x3 : S1x3.Broadcasts S4096x3
  inb_S4096x3_S4096x3_0_0 : ∀ a, (![0, 0] : Fin 2 → Nat) a + S4096x3.size a ≤ S4096x3.size a
  h_S4096x3 : 0 < S4096x3.numel
  dot_S5x4096_S5x256_S4096x256_0_0_1_1_n_n_wf : DotDims.WF S5x4096 S5x256 S4096x256 [0] [0] [1] [1] [] []
  dot_S4096x64_S64x256_S4096x256_1_0_0_1_n_n_wf : DotDims.WF S4096x64 S64x256 S4096x256 [1] [0] [0] [1] [] []
  dot_S4096x256_S256x64_S4096x64_1_0_0_1_n_n_wf : DotDims.WF S4096x256 S256x64 S4096x64 [1] [0] [0] [1] [] []
  dot_S4096x64_S64x32_S4096x32_1_0_0_1_n_n_wf : DotDims.WF S4096x64 S64x32 S4096x32 [1] [0] [0] [1] [] []
  dot_S4096x32_S32x16_S4096x16_1_0_0_1_n_n_wf : DotDims.WF S4096x32 S32x16 S4096x16 [1] [0] [0] [1] [] []
  dot_S4096x16_S16x3_S4096x3_1_0_0_1_n_n_wf : DotDims.WF S4096x16 S16x3 S4096x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x5x4096.size a ≤ S2x5x262144.size a
  hwx0_0 : ∀ i : grid0.Coords, EltTy.bits .f32 = 32 ∨ (Rect.block (s := S2x5x262144) S2x5x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S262144x64.size a
  hwx0_1 : ∀ i : grid0.Coords, EltTy.bits .f32 = 32 ∨ (Rect.block (s := S262144x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S262144x64.size a
  hwx0_2 : ∀ i : grid0.Coords, EltTy.bits .f32 = 32 ∨ (Rect.block (s := S262144x64) S4096x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x256.size a ≤ S5x256.size a
  hwx0_3 : ∀ i : grid0.Coords, EltTy.bits .bf16 = 32 ∨ (Rect.block (s := S5x256) S5x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .bf16 = 32 ∨ (Rect.block (s := S64x256) S64x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x256.size a ≤ S64x256.size a
  hwx0_6 : ∀ i : grid0.Coords, EltTy.bits .bf16 = 32 ∨ (Rect.block (s := S64x256) S64x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x64.size a ≤ S256x64.size a
  hwx0_8 : ∀ i : grid0.Coords, EltTy.bits .bf16 = 32 ∨ (Rect.block (s := S256x64) S256x64.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x32.size a ≤ S64x32.size a
  hwx0_10 : ∀ i : grid0.Coords, EltTy.bits .bf16 = 32 ∨ (Rect.block (s := S64x32) S64x32.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x32.size a ≤ S1x32.size a
  hwx0_11 : ∀ i : grid0.Coords, EltTy.bits .f32 = 32 ∨ (Rect.block (s := S1x32) S1x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32x16.size a ≤ S32x16.size a
  hwx0_12 : ∀ i : grid0.Coords, EltTy.bits .bf16 = 32 ∨ (Rect.block (s := S32x16) S32x16.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x16.size a ≤ S1x16.size a
  hwx0_13 : ∀ i : grid0.Coords, EltTy.bits .f32 = 32 ∨ (Rect.block (s := S1x16) S1x16.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S16x3.size a ≤ S16x3.size a
  hwx0_14 : ∀ i : grid0.Coords, EltTy.bits .bf16 = 32 ∨ (Rect.block (s := S16x3) S16x3.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x3.size a ≤ S1x3.size a
  hwx0_15 : ∀ i : grid0.Coords, EltTy.bits .f32 = 32 ∨ (Rect.block (s := S1x3) S1x3.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S4096x3.size a ≤ S262144x3.size a
  hwx0_16 : ∀ i : grid0.Coords, EltTy.bits .f32 = 32 ∨ (Rect.block (s := S262144x3) S4096x3.size (cc0_transform_16 i) (hinb0_16 i)).WholeWords (EltTy.packing .f32)

variable [Facts₀]

def dot_S5x4096_S5x256_S4096x256_0_0_1_1_n_n : DotDims S5x4096 S5x256 S4096x256 where
  lhsContracting := [0]
  rhsContracting := [0]
  lhsNonContracting := [1]
  rhsNonContracting := [1]
  lhsBatch := []
  rhsBatch := []
  wf := dot_S5x4096_S5x256_S4096x256_0_0_1_1_n_n_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x16_S4096x16_1_0_0_1_n_n : DotDims S4096x32 S32x16 S4096x16 where
  lhsContracting := [1]
  rhsContracting := [0]
  lhsNonContracting := [0]
  rhsNonContracting := [1]
  lhsBatch := []
  rhsBatch := []
  wf := dot_S4096x32_S32x16_S4096x16_1_0_0_1_n_n_wf
def dot_S4096x16_S16x3_S4096x3_1_0_0_1_n_n : DotDims S4096x16 S16x3 S4096x3 where
  lhsContracting := [1]
  rhsContracting := [0]
  lhsNonContracting := [0]
  rhsNonContracting := [1]
  lhsBatch := []
  rhsBatch := []
  wf := dot_S4096x16_S16x3_S4096x3_1_0_0_1_n_n_wf

abbrev win0_0 : Pipeline.Window sig grid0 :=
  Pipeline.Window.ofSpec (Memref.whole main_v0) S2x5x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S64x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S256x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S64x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S1x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S32x16.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v18) S1x16.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v20) S16x3.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v21) S1x3.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v22) S4096x3.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S2x262144x5 : Shape := ⟨3, ![2, 262144, 5]⟩
abbrev S262144x64 : Shape := ⟨2, ![262144, 64]⟩
abbrev S256x5 : Shape := ⟨2, ![256, 5]⟩
abbrev S256x64 : Shape := ⟨2, ![256, 64]⟩
abbrev S256 : Shape := ⟨1, ![256]⟩
abbrev S64x256 : Shape := ⟨2, ![64, 256]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S3x16 : Shape := ⟨2, ![3, 16]⟩
abbrev S3 : Shape := ⟨1, ![3]⟩
abbrev S1x262144x5 : Shape := ⟨3, ![1, 262144, 5]⟩
abbrev S262144x5 : Shape := ⟨2, ![262144, 5]⟩
abbrev S5x256 : Shape := ⟨2, ![5, 256]⟩
abbrev S262144x256 : Shape := ⟨2, ![262144, 256]⟩
abbrev S1x256 : Shape := ⟨2, ![1, 256]⟩
abbrev S_ : Shape := ⟨0, ![]⟩
abbrev S1x64 : Shape := ⟨2, ![1, 64]⟩
abbrev S64x32 : Shape := ⟨2, ![64, 32]⟩
abbrev S262144x32 : Shape := ⟨2, ![262144, 32]⟩
abbrev S1x32 : Shape := ⟨2, ![1, 32]⟩
abbrev S32x16 : Shape := ⟨2, ![32, 16]⟩
abbrev S262144x16 : Shape := ⟨2, ![262144, 16]⟩
abbrev S1x16 : Shape := ⟨2, ![1, 16]⟩
abbrev S16x3 : Shape := ⟨2, ![16, 3]⟩
abbrev S262144x3 : Shape := ⟨2, ![262144, 3]⟩
abbrev S1x3 : Shape := ⟨2, ![1, 3]⟩

abbrev nBuf : Space → Nat
  | .hbm => 147
  | .vmem => 0
  | .smem => 0
  | _ => 0

abbrev hbmTy0_0 (i : Nat) : BufTy := match i % 128 with
  | 0 => ⟨S2x262144x5, .f32⟩
  | 1 => ⟨S262144x64, .f32⟩
  | 2 => ⟨S262144x64, .f32⟩
  | 3 => ⟨S256x5, .f32⟩
  | 4 => ⟨S256x64, .f32⟩
  | 5 => ⟨S256, .f32⟩
  | 6 => ⟨S256, .f32⟩
  | 7 => ⟨S256x64, .f32⟩
  | 8 => ⟨S256, .f32⟩
  | 9 => ⟨S64x256, .f32⟩
  | 10 => ⟨S64, .f32⟩
  | 11 => ⟨S32x64, .f32⟩
  | 12 => ⟨S32, .f32⟩
  | 13 => ⟨S16x32, .f32⟩
  | 14 => ⟨S16, .f32⟩
  | 15 => ⟨S3x16, .f32⟩
  | 16 => ⟨S3, .f32⟩
  | 17 => ⟨S1x262144x5, .f32⟩
  | 18 => ⟨S262144x5, .f32⟩
  | 19 => ⟨S5x256, .f32⟩
  | 20 => ⟨S262144x256, .f32⟩
  | 21 => ⟨S64x256, .f32⟩
  | 22 => ⟨S262144x256, .f32⟩
  | 23 => ⟨S262144x256, .f32⟩
  | 24 => ⟨S256, .f32⟩
  | 25 => ⟨S1x256, .f32⟩
  | 26 => ⟨S262144x256, .f32⟩
  | 27 => ⟨S262144x256, .f32⟩
  | 28 => ⟨S262144x64, .f32⟩
  | 29 => ⟨S262144x64, .f32⟩
  | 30 => ⟨S262144x64, .f32⟩
  | 31 => ⟨S262144x64, .f32⟩
  | 32 => ⟨S262144x64, .f32⟩
  | 33 => ⟨S262144x64, .f32⟩
  | 34 => ⟨S_, .f32⟩
  | 35 => ⟨S262144x64, .f32⟩
  | 36 => ⟨S262144x64, .f32⟩
  | 37 => ⟨S_, .f32⟩
  | 38 => ⟨S262144x64, .f32⟩
  | 39 => ⟨S262144x64, .f32⟩
  | 40 => ⟨S262144x64, .f32⟩
  | 41 => ⟨S262144x64, .f32⟩
  | 42 => ⟨S_, .f32⟩
  | 43 => ⟨S262144x64, .f32⟩
  | 44 => ⟨S262144x64, .f32⟩
  | 45 => ⟨S_, .f32⟩
  | 46 => ⟨S262144x64, .f32⟩
  | 47 => ⟨S262144x64, .f32⟩
  | 48 => ⟨S262144x64, .f32⟩
  | 49 => ⟨S262144x64, .f32⟩
  | 50 => ⟨S262144x64, .f32⟩
  | 51 => ⟨S_, .f32⟩
  | 52 => ⟨S262144x64, .f32⟩
  | 53 => ⟨S262144x64, .f32⟩
  | 54 => ⟨S_, .f32⟩
  | 55 => ⟨S262144x64, .f32⟩
  | 56 => ⟨S262144x64, .f32⟩
  | 57 => ⟨S262144x64, .f32⟩
  | 58 => ⟨S262144x64, .f32⟩
  | 59 => ⟨S262144x64, .f32⟩
  | 60 => ⟨S262144x64, .f32⟩
  | 61 => ⟨S262144x64, .f32⟩
  | 62 => ⟨S1x262144x5, .f32⟩
  | 63 => ⟨S262144x5, .f32⟩
  | 64 => ⟨S5x256, .f32⟩
  | 65 => ⟨S262144x256, .f32⟩
  | 66 => ⟨S64x256, .f32⟩
  | 67 => ⟨S262144x256, .f32⟩
  | 68 => ⟨S262144x256, .f32⟩
  | 69 => ⟨S256, .f32⟩
  | 70 => ⟨S1x256, .f32⟩
  | 71 => ⟨S262144x256, .f32⟩
  | 72 => ⟨S262144x256, .f32⟩
  | 73 => ⟨S262144x64, .f32⟩
  | 74 => ⟨S262144x64, .f32⟩
  | 75 => ⟨S262144x64, .f32⟩
  | 76 => ⟨S262144x64, .f32⟩
  | 77 => ⟨S262144x64, .f32⟩
  | 78 => ⟨S262144x64, .f32⟩
  | 79 => ⟨S_, .f32⟩
  | 80 => ⟨S262144x64, .f32⟩
  | 81 => ⟨S262144x64, .f32⟩
  | 82 => ⟨S_, .f32⟩
  | 83 => ⟨S262144x64, .f32⟩
  | 84 => ⟨S262144x64, .f32⟩
  | 85 => ⟨S262144x64, .f32⟩
  | 86 => ⟨S262144x64, .f32⟩
  | 87 => ⟨S_, .f32⟩
  | 88 => ⟨S262144x64, .f32⟩
  | 89 => ⟨S262144x64, .f32⟩
  | 90 => ⟨S_, .f32⟩
  | 91 => ⟨S262144x64, .f32⟩
  | 92 => ⟨S262144x64, .f32⟩
  | 93 => ⟨S262144x64, .f32⟩
  | 94 => ⟨S262144x64, .f32⟩
  | 95 => ⟨S262144x64, .f32⟩
  | 96 => ⟨S_, .f32⟩
  | 97 => ⟨S262144x64, .f32⟩
  | 98 => ⟨S262144x64, .f32⟩
  | 99 => ⟨S_, .f32⟩
  | 100 => ⟨S262144x64, .f32⟩
  | 101 => ⟨S262144x64, .f32⟩
  | 102 => ⟨S262144x64, .f32⟩
  | 103 => ⟨S262144x64, .f32⟩
  | 104 => ⟨S262144x64, .f32⟩
  | 105 => ⟨S262144x64, .f32⟩
  | 106 => ⟨S262144x64, .f32⟩
  | 107 => ⟨S_, .f32⟩
  | 108 => ⟨S262144x64, .f32⟩
  | 109 => ⟨S262144x64, .f32⟩
  | 110 => ⟨S64x256, .f32⟩
  | 111 => ⟨S262144x256, .f32⟩
  | 112 => ⟨S1x256, .f32⟩
  | 113 => ⟨S262144x256, .f32⟩
  | 114 => ⟨S262144x256, .f32⟩
  | 115 => ⟨S_, .f32⟩
  | 116 => ⟨S262144x256, .f32⟩
  | 117 => ⟨S262144x256, .f32⟩
  | 118 => ⟨S256x64, .f32⟩
  | 119 => ⟨S262144x64, .f32⟩
  | 120 => ⟨S1x64, .f32⟩
  | 121 => ⟨S262144x64, .f32⟩
  | 122 => ⟨S262144x64, .f32⟩
  | 123 => ⟨S_, .f32⟩
  | 124 => ⟨S262144x64, .f32⟩
  | 125 => ⟨S262144x64, .f32⟩
  | 126 => ⟨S64x32, .f32⟩
  | 127 => ⟨S262144x32, .f32⟩
  | _ => ⟨S2x262144x5, .f32⟩

abbrev hbmTy0_1 (i : Nat) : BufTy := match i % 128 with
  | 0 => ⟨S1x32, .f32⟩
  | 1 => ⟨S262144x32, .f32⟩
  | 2 => ⟨S262144x32, .f32⟩
  | 3 => ⟨S_, .f32⟩
  | 4 => ⟨S262144x32, .f32⟩
  | 5 => ⟨S262144x32, .f32⟩
  | 6 => ⟨S32x16, .f32⟩
  | 7 => ⟨S262144x16, .f32⟩
  | 8 => ⟨S1x16, .f32⟩
  | 9 => ⟨S262144x16, .f32⟩
  | 10 => ⟨S262144x16, .f32⟩
  | 11 => ⟨S_, .f32⟩
  | 12 => ⟨S262144x16, .f32⟩
  | 13 => ⟨S262144x16, .f32⟩
  | 14 => ⟨S16x3, .f32⟩
  | 15 => ⟨S262144x3, .f32⟩
  | 16 => ⟨S1x3, .f32⟩
  | 17 => ⟨S262144x3, .f32⟩
  | 18 => ⟨S262144x3, .f32⟩
  | _ => ⟨S2x262144x5, .f32⟩

abbrev hbmTy (i : Nat) : BufTy := match i / 128 with
  | 0 => hbmTy0_0 i
  | 1 => hbmTy0_1 i
  | _ => ⟨S2x262144x5, .f32⟩

abbrev bufTy : (tb : Table) → Fin (tcTables nBuf tb) → BufTy
  | .hbm, ⟨i, _⟩ => hbmTy i
  | _, _ => ⟨S2x262144x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_cst_0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_1 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_5 : Ref sig .tc := ⟨.hbm, 79, rfl⟩
abbrev main_v56 : Ref sig .tc := ⟨.hbm, 80, rfl⟩
abbrev main_v57 : Ref sig .tc := ⟨.hbm, 81, rfl⟩
abbrev main_cst_6 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_cst_8 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_9 : Ref sig .tc := ⟨.hbm, 96, rfl⟩
abbrev main_v69 : Ref sig .tc := ⟨.hbm, 97, rfl⟩
abbrev main_v70 : Ref sig .tc := ⟨.hbm, 98, rfl⟩
abbrev main_cst_10 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_call0_cst : Ref sig .tc := ⟨.hbm, 107, rfl⟩
abbrev main_call0_v0 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_call1_cst : Ref sig .tc := ⟨.hbm, 115, rfl⟩
abbrev main_call1_v0 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_call2_cst : Ref sig .tc := ⟨.hbm, 123, rfl⟩
abbrev main_call2_v0 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_call3_cst : Ref sig .tc := ⟨.hbm, 131, rfl⟩
abbrev main_call3_v0 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_call4_cst : Ref sig .tc := ⟨.hbm, 139, rfl⟩
abbrev main_call4_v0 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩

abbrev nD : Nat := 1
abbrev τ : Topo := Topo.v7x

variable {F : FTy → Type} [FloatOps F]

class Facts₀ : Prop where
  slices_S2x262144x5_S1x262144x5_0_0_0 : S2x262144x5.Slices ![0, 0, 0] S1x262144x5
  shapeCasts_S1x262144x5_S262144x5 : S1x262144x5.ShapeCasts S262144x5
  transposes_S256x5_S5x256_1_0 : S256x5.Transposes [1, 0] S5x256
  transposes_S256x64_S64x256_1_0 : S256x64.Transposes [1, 0] S64x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  slices_S262144x256_S262144x64_0_0 : S262144x256.Slices ![0, 0] S262144x64
  slices_S262144x256_S262144x64_0_64 : S262144x256.Slices ![0, 64] S262144x64
  slices_S262144x256_S262144x64_0_128 : S262144x256.Slices ![0, 128] S262144x64
  slices_S262144x256_S262144x64_0_192 : S262144x256.Slices ![0, 192] S262144x64
  bcast_S_S262144x64 : S_.BroadcastsInDim S262144x64 (![] : Fin 0 → Fin S262144x64.rank)
  slices_S2x262144x5_S1x262144x5_1_0_0 : S2x262144x5.Slices ![1, 0, 0] S1x262144x5
  bcast_S_S262144x256 : S_.BroadcastsInDim S262144x256 (![] : Fin 0 → Fin S262144x256.rank)
  transposes_S64x256_S256x64_1_0 : S64x256.Transposes [1, 0] S256x64
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  transposes_S32x64_S64x32_1_0 : S32x64.Transposes [1, 0] S64x32
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  bcast_S_S262144x32 : S_.BroadcastsInDim S262144x32 (![] : Fin 0 → Fin S262144x32.rank)
  transposes_S16x32_S32x16_1_0 : S16x32.Transposes [1, 0] S32x16
  bcast_S16_S1x16_1 : S16.BroadcastsInDim S1x16 (![1] : Fin 1 → Fin S1x16.rank)
  bcast_S1x16_S262144x16_0_1 : S1x16.BroadcastsInDim S262144x16 (![0, 1] : Fin 2 → Fin S262144x16.rank)
  bcast_S_S262144x16 : S_.BroadcastsInDim S262144x16 (![] : Fin 0 → Fin S262144x16.rank)
  transposes_S3x16_S16x3_1_0 : S3x16.Transposes [1, 0] S16x3
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  dot_S262144x5_S5x256_S262144x256_1_0_0_1_n_n_wf : DotDims.WF S262144x5 S5x256 S262144x256 [1] [0] [0] [1] [] []
  dot_S262144x64_S64x256_S262144x256_1_0_0_1_n_n_wf : DotDims.WF S262144x64 S64x256 S262144x256 [1] [0] [0] [1] [] []
  dot_S262144x256_S256x64_S262144x64_1_0_0_1_n_n_wf : DotDims.WF S262144x256 S256x64 S262144x64 [1] [0] [0] [1] [] []
  dot_S262144x64_S64x32_S262144x32_1_0_0_1_n_n_wf : DotDims.WF S262144x64 S64x32 S262144x32 [1] [0] [0] [1] [] []
  dot_S262144x32_S32x16_S262144x16_1_0_0_1_n_n_wf : DotDims.WF S262144x32 S32x16 S262144x16 [1] [0] [0] [1] [] []
  dot_S262144x16_S16x3_S262144x3_1_0_0_1_n_n_wf : DotDims.WF S262144x16 S16x3 S262144x3 [1] [0] [0] [1] [] []

variable [Facts₀]

def dot_S262144x5_S5x256_S262144x256_1_0_0_1_n_n : DotDims S262144x5 S5x256 S262144x256 where
  lhsContracting := [1]
  rhsContracting := [0]
  lhsNonContracting := [0]
  rhsNonContracting := [1]
  lhsBatch := []
  rhsBatch := []
  wf := dot_S262144x5_S5x256_S262144x256_1_0_0_1_n_n_wf
def dot_S262144x64_S64x256_S262144x256_1_0_0_1_n_n : DotDims S262144x64 S64x256 S262144x256 where
  lhsContracting := [1]
  rhsContracting := [0]
  lhsNonContracting := [0]
  rhsNonContracting := [1]
  lhsBatch := []
  rhsBatch := []
  wf := dot_S262144x64_S64x256_S262144x256_1_0_0_1_n_n_wf
def dot_S262144x256_S256x64_S262144x64_1_0_0_1_n_n : DotDims S262144x256 S256x64 S262144x64 where
  lhsContracting := [1]
  rhsContracting := [0]
  lhsNonContracting := [0]
  rhsNonContracting := [1]
  lhsBatch := []
  rhsBatch := []
  wf := dot_S262144x256_S256x64_S262144x64_1_0_0_1_n_n_wf
def dot_S262144x64_S64x32_S262144x32_1_0_0_1_n_n : DotDims S262144x64 S64x32 S262144x32 where
  lhsContracting := [1]
  rhsContracting := [0]
  lhsNonContracting := [0]
  rhsNonContracting := [1]
  lhsBatch := []
  rhsBatch := []
  wf := dot_S262144x64_S64x32_S262144x32_1_0_0_1_n_n_wf
def dot_S262144x32_S32x16_S262144x16_1_0_0_1_n_n : DotDims S262144x32 S32x16 S262144x16 where
  lhsContracting := [1]
  rhsContracting := [0]
  lhsNonContracting := [0]
  rhsNonContracting := [1]
  lhsBatch := []
  rhsBatch := []
  wf := dot_S262144x32_S32x16_S262144x16_1_0_0_1_n_n_wf
def dot_S262144x16_S16x3_S262144x3_1_0_0_1_n_n : DotDims S262144x16 S16x3 S262144x3 where
  lhsContracting := [1]
  rhsContracting := [0]
  lhsNonContracting := [0]
  rhsNonContracting := [1]
  lhsBatch := []
  rhsBatch := []
  wf := dot_S262144x16_S16x3_S262144x3_1_0_0_1_n_n_wf

class Facts : Prop extends Facts₀ where

variable [Facts]
-- ==== Proof.Spec.lean ====
/-
  The function both programs compute, row by row, on the extended reals.

  A row of the batch carries two input vectors `x₀ x₁ : Fin 5 → EReal` and a hidden and a cell state
  `h c : Fin 64 → EReal`.  One recurrent step forms the 256 pre-activations
  `g j = (∑ₖ x k · Wi k j + ∑ₖ h k · Wh k j) + b j`, splits them in four groups of 64 columns
  (input, forget, candidate, output), and updates
  `c' j = σ (g (64 + j)) · c j + σ (g j) · tanh (g (128 + j))`, `h' j = σ (g (192 + j)) · tanh (c' j)`.
  Two steps are followed by a rectifier, four rectified affine layers and one affine head of three columns.
  The gate nonlinearity `σ` is a parameter: one program spells it `½ · tanh (½ · x) + ½`, the other
  `1 / (1 + e⁻ˣ)`; they are one function on the extended reals (`sigT_eq_sigE`).
-/
import Idealize.ShloMosaic.PureOps.Ideal
import Idealize.ShloMosaic.Lib.ValueIdx

noncomputable section

namespace Cert.Lstm

open Idealize.ShloMosaic Idealize.ShloMosaic.ValueIdx

/-- The zero word of the rectifier, kept as a word: both programs spell the same one. -/
def zeroW : EReal := Ideal.ofBits .f32 0x00000000#32
/-- The word of `0.5`. -/
def halfW : EReal := Ideal.ofBits .f32 0x3F000000#32
/-- The word of `1.0`. -/
def oneW : EReal := Ideal.ofBits .f32 0x3F800000#32

/-- The rectifier `max x 0`. -/
def relu (x : EReal) : EReal := max x zeroW

/-- The logistic function spelt through the hyperbolic tangent: `½ · tanh (½ · x) + ½`. -/
def sigT (x : EReal) : EReal := halfW * Ideal.tanh (halfW * x) + halfW
/-- The logistic function spelt through the exponential: `1 / (1 + e⁻ˣ)`. -/
def sigE (x : EReal) : EReal := Ideal.div oneW (oneW + Ideal.exp (-x))

/-- An affine layer on a row: `(∑ₖ z k · W k j) + b j` (the weights with the contracted axis first). -/
def affine {K N : ℕ} (z : Fin K → EReal) (W : Fin K → Fin N → EReal) (b : Fin N → EReal) (j : Fin N) : EReal :=
  (∑ k : Fin K, z k * W k j) + b j

/-- The 256 pre-activations of one recurrent step. -/
def gates (x : Fin 5 → EReal) (h : Fin 64 → EReal) (Wi : Fin 5 → Fin 256 → EReal) (Wh : Fin 64 → Fin 256 → EReal)
    (b : Fin 256 → EReal) (j : Fin 256) : EReal :=
  ((∑ k : Fin 5, x k * Wi k j) + (∑ k : Fin 64, h k * Wh k j)) + b j

/-- Column `o + j` of the 256 pre-activations, for `j` in a group of 64. -/
def col (o : ℕ) (ho : o + 64 ≤ 256) (j : Fin 64) : Fin 256 := ⟨o + j.val, by have := j.isLt; omega⟩

/-- The new cell state of one step: forget · c + input · candidate. -/
def cellNext (σ : EReal → EReal) (g : Fin 256 → EReal) (c : Fin 64 → EReal) (j : Fin 64) : EReal :=
  σ (g (col 64 (by decide) j)) * c j + σ (g (col 0 (by decide) j)) * Ideal.tanh (g (col 128 (by decide) j))

/-- The new hidden state of one step: output · tanh (new cell). -/
def hidNext (σ : EReal → EReal) (g : Fin 256 → EReal) (c : Fin 64 → EReal) (j : Fin 64) : EReal :=
  σ (g (col 192 (by decide) j)) * Ideal.tanh (cellNext σ g c j)

/-- The weights of the network, each matrix with its contracted axis first. -/
structure Wts where
  Wi : Fin 5 → Fin 256 → EReal
  Wh : Fin 64 → Fin 256 → EReal
  bg : Fin 256 → EReal
  W1 : Fin 64 → Fin 256 → EReal
  b1 : Fin 256 → EReal
  W2 : Fin 256 → Fin 64 → EReal
  b2 : Fin 64 → EReal
  W3 : Fin 64 → Fin 32 → EReal
  b3 : Fin 32 → EReal
  W4 : Fin 32 → Fin 16 → EReal
  b4 : Fin 16 → EReal
  W5 : Fin 16 → Fin 3 → EReal
  b5 : Fin 3 → EReal

/-- The pre-activations of the first step. -/
def g1 (P : Wts) (x0 : Fin 5 → EReal) (h : Fin 64 → EReal) : Fin 256 → EReal := gates x0 h P.Wi P.Wh P.bg
/-- The cell and hidden state after the first step. -/
def c1 (σ : EReal → EReal) (P : Wts) (x0 : Fin 5 → EReal) (h c : Fin 64 → EReal) : Fin 64 → EReal := cellNext σ (g1 P x0 h) c
def h1 (σ : EReal → EReal) (P : Wts) (x0 : Fin 5 → EReal) (h c : Fin 64 → EReal) : Fin 64 → EReal := hidNext σ (g1 P x0 h) c
/-- The pre-activations of the second step. -/
def g2 (σ : EReal → EReal) (P : Wts) (x0 x1 : Fin 5 → EReal) (h c : Fin 64 → EReal) : Fin 256 → EReal :=
  gates x1 (h1 σ P x0 h c) P.Wi P.Wh P.bg
/-- The hidden state after the second step. -/
def h2 (σ : EReal → EReal) (P : Wts) (x0 x1 : Fin 5 → EReal) (h c : Fin 64 → EReal) : Fin 64 → EReal :=
  hidNext σ (g2 σ P x0 x1 h c) (c1 σ P x0 h c)

/-- The rectified layers after the recurrence, one at a time. -/
def a0 (σ : EReal → EReal) (P : Wts) (x0 x1 : Fin 5 → EReal) (h c : Fin 64 → EReal) : Fin 64 → EReal :=
  fun j => relu (h2 σ P x0 x1 h c j)
def a1 (σ : EReal → EReal) (P : Wts) (x0 x1 : Fin 5 → EReal) (h c : Fin 64 → EReal) : Fin 256 → EReal :=
  fun j => relu (affine (a0 σ P x0 x1 h c) P.W1 P.b1 j)
def a2 (σ : EReal → EReal) (P : Wts) (x0 x1 : Fin 5 → EReal) (h c : Fin 64 → EReal) : Fin 64 → EReal :=
  fun j => relu (affine (a1 σ P x0 x1 h c) P.W2 P.b2 j)
def a3 (σ : EReal → EReal) (P : Wts) (x0 x1 : Fin 5 → EReal) (h c : Fin 64 → EReal) : Fin 32 → EReal :=
  fun j => relu (affine (a2 σ P x0 x1 h c) P.W3 P.b3 j)
def a4 (σ : EReal → EReal) (P : Wts) (x0 x1 : Fin 5 → EReal) (h c : Fin 64 → EReal) : Fin 16 → EReal :=
  fun j => relu (affine (a3 σ P x0 x1 h c) P.W4 P.b4 j)
/-- The three outputs of a row. -/
def rowOut (σ : EReal → EReal) (P : Wts) (x0 x1 : Fin 5 → EReal) (h c : Fin 64 → EReal) : Fin 3 → EReal :=
  affine (a4 σ P x0 x1 h c) P.W5 P.b5

/-! ## The whole arrays -/

/-- The weights as the argument arrays hold them: each matrix stored with its output axis first, the two
    recurrent biases separately. -/
def wtsOf (Wih : (⟨2, ![256, 5]⟩ : Shape).Idx → EReal) (Whh : (⟨2, ![256, 64]⟩ : Shape).Idx → EReal)
    (bih bhh : (⟨1, ![256]⟩ : Shape).Idx → EReal)
    (W1 : (⟨2, ![256, 64]⟩ : Shape).Idx → EReal) (b1 : (⟨1, ![256]⟩ : Shape).Idx → EReal)
    (W2 : (⟨2, ![64, 256]⟩ : Shape).Idx → EReal) (b2 : (⟨1, ![64]⟩ : Shape).Idx → EReal)
    (W3 : (⟨2, ![32, 64]⟩ : Shape).Idx → EReal) (b3 : (⟨1, ![32]⟩ : Shape).Idx → EReal)
    (W4 : (⟨2, ![16, 32]⟩ : Shape).Idx → EReal) (b4 : (⟨1, ![16]⟩ : Shape).Idx → EReal)
    (W5 : (⟨2, ![3, 16]⟩ : Shape).Idx → EReal) (b5 : (⟨1, ![3]⟩ : Shape).Idx → EReal) : Wts where
  Wi k j := Wih (ix2 j k)
  Wh k j := Whh (ix2 j k)
  bg j := bih (ix1 j) + bhh (ix1 j)
  W1 k j := W1 (ix2 j k)
  b1 j := b1 (ix1 j)
  W2 k j := W2 (ix2 j k)
  b2 j := b2 (ix1 j)
  W3 k j := W3 (ix2 j k)
  b3 j := b3 (ix1 j)
  W4 k j := W4 (ix2 j k)
  b4 j := b4 (ix1 j)
  W5 k j := W5 (ix2 j k)
  b5 j := b5 (ix1 j)

/-- The weights as the kernel's resident blocks hold them: each matrix already with its contracted axis first,
    each bias a one-row matrix, the two recurrent biases already added. -/
def wtsBlk (Wi : (⟨2, ![5, 256]⟩ : Shape).Idx → EReal) (Wh : (⟨2, ![64, 256]⟩ : Shape).Idx → EReal)
    (bg : (⟨2, ![1, 256]⟩ : Shape).Idx → EReal)
    (W1 : (⟨2, ![64, 256]⟩ : Shape).Idx → EReal) (b1 : (⟨2, ![1, 256]⟩ : Shape).Idx → EReal)
    (W2 : (⟨2, ![256, 64]⟩ : Shape).Idx → EReal) (b2 : (⟨2, ![1, 64]⟩ : Shape).Idx → EReal)
    (W3 : (⟨2, ![64, 32]⟩ : Shape).Idx → EReal) (b3 : (⟨2, ![1, 32]⟩ : Shape).Idx → EReal)
    (W4 : (⟨2, ![32, 16]⟩ : Shape).Idx → EReal) (b4 : (⟨2, ![1, 16]⟩ : Shape).Idx → EReal)
    (W5 : (⟨2, ![16, 3]⟩ : Shape).Idx → EReal) (b5 : (⟨2, ![1, 3]⟩ : Shape).Idx → EReal) : Wts where
  Wi k j := Wi (ix2 k j)
  Wh k j := Wh (ix2 k j)
  bg j := bg (ix2 0 j)
  W1 k j := W1 (ix2 k j)
  b1 j := b1 (ix2 0 j)
  W2 k j := W2 (ix2 k j)
  b2 j := b2 (ix2 0 j)
  W3 k j := W3 (ix2 k j)
  b3 j := b3 (ix2 0 j)
  W4 k j := W4 (ix2 k j)
  b4 j := b4 (ix2 0 j)
  W5 k j := W5 (ix2 k j)
  b5 j := b5 (ix2 0 j)

/-- The result array: entry `(r, j)` is output `j` of row `r`, whose inputs are rows `r` of the two time slices
    of `x` and of the two initial states. -/
def G (σ : EReal → EReal) (P : Wts) (x : (⟨3, ![2, 262144, 5]⟩ : Shape).Idx → EReal)
    (h0 c0 : (⟨2, ![262144, 64]⟩ : Shape).Idx → EReal) : (⟨2, ![262144, 3]⟩ : Shape).Idx → EReal :=
  fun i => rowOut σ P (fun k => x (ix3 0 (i 0) k)) (fun k => x (ix3 1 (i 0) k))
    (fun k => h0 (ix2 (i 0) k)) (fun k => c0 (ix2 (i 0) k)) (i 1)

end Cert.Lstm

end
-- ==== Proof.Sigma.lean ====
/-
  The two spellings of the gate nonlinearity are one function on the extended reals:
  `½ · tanh (½ · x) + ½ = 1 / (1 + e⁻ˣ)`.  On a real `r`, with `u = e^{r/2}`, the left side is
  `½ · (u − u⁻¹)/(u + u⁻¹) + ½ = u / (u + u⁻¹) = 1 / (1 + u⁻²)`; at `−∞` both sides are `0`
  (`tanh (−∞) = −1`, `e^{+∞} = +∞`), at `+∞` both are `1`.
-/
import proofs.«128643_j23106924052863_2_alg».proof.Proof.Spec

noncomputable section

namespace Cert.Lstm

open Idealize.ShloMosaic

/-- The word `0x3F000000` denotes `1/2`. -/
theorem halfW_eq : halfW = ((1 / 2 : ℝ) : EReal) := by
  unfold halfW
  simp [Ideal.ofBits, Ideal.ieee, -EReal.coe_mul]; norm_num

/-- The word `0x3F800000` denotes `1`. -/
theorem oneW_eq : oneW = 1 := by
  unfold oneW
  simp [Ideal.ofBits, Ideal.ieee, -EReal.coe_mul]; norm_num

/-- The identity on the reals. -/
theorem real_logistic (r : ℝ) : (1 / 2 : ℝ) * Real.tanh ((1 / 2) * r) + 1 / 2 = (1 + Real.exp (-r))⁻¹ := by
  have hu : 0 < Real.exp ((1 / 2) * r) := Real.exp_pos _
  have h1 : Real.exp (-r) = (Real.exp ((1 / 2) * r))⁻¹ ^ 2 := by
    rw [← Real.exp_neg, ← Real.exp_nat_mul]; congr 1; push_cast; ring
  rw [Real.tanh_eq_sinh_div_cosh, Real.sinh_eq, Real.cosh_eq, Real.exp_neg, h1]
  generalize Real.exp ((1 / 2) * r) = u at hu
  have hu' : u ≠ 0 := ne_of_gt hu
  field_simp
  ring

theorem sigT_eq_sigE : sigT = sigE := by
  funext x
  show halfW * Ideal.tanh (halfW * x) + halfW = Ideal.div oneW (oneW + Ideal.exp (-x))
  rw [halfW_eq, oneW_eq]
  show _ = Ideal.logistic x
  induction x using EReal.rec with
  | bot =>
    rw [EReal.coe_mul_bot_of_pos (by norm_num), Ideal.tanh_bot, Ideal.logistic_bot]
    rw [show (-1 : EReal) = ((-1 : ℝ) : EReal) by rw [EReal.coe_neg, EReal.coe_one], ← EReal.coe_mul, ← EReal.coe_add]
    norm_num
  | coe r =>
    rw [← EReal.coe_mul, Ideal.tanh_coe, ← EReal.coe_mul, ← EReal.coe_add, Ideal.logistic_coe, real_logistic]
  | top =>
    rw [EReal.coe_mul_top_of_pos (by norm_num), Ideal.tanh_top, Ideal.logistic_top]
    rw [show (1 : EReal) = ((1 : ℝ) : EReal) by rw [EReal.coe_one], ← EReal.coe_mul, ← EReal.coe_add]
    norm_num

end Cert.Lstm

end
-- ==== Proof.KernelArrBlocks.lean ====
/-
  Each window's block at a grid point, read at an index of the array it stages.  At point `t` the three
  row-tiled inputs and the output hold rows `4096 t … 4096 t + 4095`; every weight and bias window holds its
  whole array at every point.
-/
import proofs.«128643_j23106924052863_2_alg».proof.Proof.Gen.KernelIdeal.Frame
import Idealize.ShloMosaic.Lib.ValueIdx
import Idealize.ShloMosaic.Lib.Pipeline.Value

noncomputable section

namespace Cert.KernelIdeal.ArrValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The windows' index maps over the 64 grid points: the row-tiled windows are at block `t` along the row axis
    and block 0 along every other; the resident windows are at block 0 throughout. -/
theorem idx_facts : ∀ t : Fin cfg0.N,
    win0_0.index t (0 : Fin 3) = 0
    ∧ win0_0.index t (1 : Fin 3) = 0
    ∧ win0_0.index t (2 : Fin 3) = t.val
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0
    ∧ win0_15.index t (0 : Fin 2) = 0
    ∧ win0_15.index t (1 : Fin 2) = 0
    ∧ win0_16.index t (0 : Fin 2) = t.val
    ∧ win0_16.index t (1 : Fin 2) = 0 :=
  (by decide +kernel : ∀ t : Fin grid0.N, _)

/-- The input block at point `t`, at time slice `s`, feature `k` and row `p` of the block, is the staged input at row
    `4096 t + p`. -/
theorem iblk0_apply (c : Dev nD) (t : Fin cfg0.N) (s : Fin 2) (k : Fin 5) (p : Fin 4096) (r : Fin 262144)
    (hr : r.val = t.val * 4096 + p.val) :
    (iblk m c 0 t : S2x5x4096.Idx → EReal) (ix3 s k p) = (V m c main_v0 : S2x5x262144.Idx → EReal) (ix3 s k r) := by
  obtain ⟨e0, e1, e2, -⟩ := idx_facts t
  unfold iblk
  rw [View.read_apply]
  show (V m c main_v0 : S2x5x262144.Idx → EReal) _ = _
  congr 1
  funext a; apply Fin.ext
  match a with
  | ⟨0, _⟩ => show win0_0.index t (0 : Fin 3) * 2 + 1 * s.val = s.val; omega
  | ⟨1, _⟩ => show win0_0.index t (1 : Fin 3) * 5 + 1 * k.val = k.val; omega
  | ⟨2, _⟩ => show win0_0.index t (2 : Fin 3) * 4096 + 1 * p.val = r.val; omega

/-- The hidden-state block at point `t`, at row `p` of the block and column `k`, is the argument at row `4096 t + p`. -/
theorem iblk1_apply (c : Dev nD) (t : Fin cfg0.N) (p : Fin 4096) (k : Fin 64) (r : Fin 262144)
    (hr : r.val = t.val * 4096 + p.val) :
    (iblk m c 1 t : S4096x64.Idx → EReal) (ix2 p k) = (V m c main_arg1 : S262144x64.Idx → EReal) (ix2 r k) := by
  obtain ⟨-, -, -, e0, e1, -⟩ := idx_facts t
  unfold iblk
  rw [View.read_apply]
  show (V m c main_arg1 : S262144x64.Idx → EReal) _ = _
  congr 1
  funext a; apply Fin.ext
  match a with
  | ⟨0, _⟩ => show win0_1.index t (0 : Fin 2) * 4096 + 1 * p.val = r.val; omega
  | ⟨1, _⟩ => show win0_1.index t (1 : Fin 2) * 64 + 1 * k.val = k.val; omega

/-- The cell-state block at point `t`, at row `p` of the block and column `k`, is the argument at row `4096 t + p`. -/
theorem iblk2_apply (c : Dev nD) (t : Fin cfg0.N) (p : Fin 4096) (k : Fin 64) (r : Fin 262144)
    (hr : r.val = t.val * 4096 + p.val) :
    (iblk m c 2 t : S4096x64.Idx → EReal) (ix2 p k) = (V m c main_arg2 : S262144x64.Idx → EReal) (ix2 r k) := by
  obtain ⟨-, -, -, -, -, e0, e1, -⟩ := idx_facts t
  unfold iblk
  rw [View.read_apply]
  show (V m c main_arg2 : S262144x64.Idx → EReal) _ = _
  congr 1
  funext a; apply Fin.ext
  match a with
  | ⟨0, _⟩ => show win0_2.index t (0 : Fin 2) * 4096 + 1 * p.val = r.val; omega
  | ⟨1, _⟩ => show win0_2.index t (1 : Fin 2) * 64 + 1 * k.val = k.val; omega

/-- Window 3's block at any point is the whole of the array it stages. -/
theorem iblk3_apply (c : Dev nD) (t : Fin cfg0.N) (k : Fin 5) (j : Fin 256) :
    (iblk m c 3 t : S5x256.Idx → EReal) (ix2 k j) = (V m c main_v2 : S5x256.Idx → EReal) (ix2 k j) := by
  obtain ⟨-, -, -, -, -, -, -, e0, e1, -⟩ := idx_facts t
  unfold iblk
  rw [View.read_apply]
  show (V m c main_v2 : S5x256.Idx → EReal) _ = _
  congr 1
  funext a; apply Fin.ext
  match a with
  | ⟨0, _⟩ => show win0_3.index t (0 : Fin 2) * 5 + 1 * k.val = k.val; omega
  | ⟨1, _⟩ => show win0_3.index t (1 : Fin 2) * 256 + 1 * j.val = j.val; omega

/-- Window 4's block at any point is the whole of the array it stages. -/
theorem iblk4_apply (c : Dev nD) (t : Fin cfg0.N) (k : Fin 64) (j : Fin 256) :
    (iblk m c 4 t : S64x256.Idx → EReal) (ix2 k j) = (V m c main_v4 : S64x256.Idx → EReal) (ix2 k j) := by
  obtain ⟨-, -, -, -, -, -, -, -, -, e0, e1, -⟩ := idx_facts t
  unfold iblk
  rw [View.read_apply]
  show (V m c main_v4 : S64x256.Idx → EReal) _ = _
  congr 1
  funext a; apply Fin.ext
  match a with
  | ⟨0, _⟩ => show win0_4.index t (0 : Fin 2) * 64 + 1 * k.val = k.val; omega
  | ⟨1, _⟩ => show win0_4.index t (1 : Fin 2) * 256 + 1 * j.val = j.val; omega

/-- Window 5's block at any point is the whole of the array it stages. -/
theorem iblk5_apply (c : Dev nD) (t : Fin cfg0.N) (k : Fin 1) (j : Fin 256) :
    (iblk m c 5 t : S1x256.Idx → EReal) (ix2 k j) = (V m c main_v6 : S1x256.Idx → EReal) (ix2 k j) := by
  obtain ⟨-, -, -, -, -, -, -, -, -, -, -, e0, e1, -⟩ := idx_facts t
  unfold iblk
  rw [View.read_apply]
  show (V m c main_v6 : S1x256.Idx → EReal) _ = _
  congr 1
  funext a; apply Fin.ext
  match a with
  | ⟨0, _⟩ => show win0_5.index t (0 : Fin 2) * 1 + 1 * k.val = k.val; omega
  | ⟨1, _⟩ => show win0_5.index t (1 : Fin 2) * 256 + 1 * j.val = j.val; omega

/-- Window 6's block at any point is the whole of the array it stages. -/
theorem iblk6_apply (c : Dev nD) (t : Fin cfg0.N) (k : Fin 64) (j : Fin 256) :
    (iblk m c 6 t : S64x256.Idx → EReal) (ix2 k j) = (V m c main_v8 : S64x256.Idx → EReal) (ix2 k j) := by
  obtain ⟨-, -, -, -, -, -, -, -, -, -, -, -, -, e0, e1, -⟩ := idx_facts t
  unfold iblk
  rw [View.read_apply]
  show (V m c main_v8 : S64x256.Idx → EReal) _ = _
  congr 1
  funext a; apply Fin.ext
  match a with
  | ⟨0, _⟩ => show win0_6.index t (0 : Fin 2) * 64 + 1 * k.val = k.val; omega
  | ⟨1, _⟩ => show win0_6.index t (1 : Fin 2) * 256 + 1 * j.val = j.val; omega

/-- Window 7's block at any point is the whole of the array it stages. -/
theorem iblk7_apply (c : Dev nD) (t : Fin cfg0.N) (k : Fin 1) (j : Fin 256) :
    (iblk m c 7 t : S1x256.Idx → EReal) (ix2 k j) = (V m c main_v9 : S1x256.Idx → EReal) (ix2 k j) := by
  obtain ⟨-, -, -, -, -, -, -, -, -, -, -, -, -, -, -, e0, e1, -⟩ := idx_facts t
  unfold iblk
  rw [View.read_apply]
  show (V m c main_v9 : S1x256.Idx → EReal) _ = _
  congr 1
  funext a; apply Fin.ext
  match a with
  | ⟨0, _⟩ => show win0_7.index t (0 : Fin 2) * 1 + 1 * k.val = k.val; omega
  | ⟨1, _⟩ => show win0_7.index t (1 : Fin 2) * 256 + 1 * j.val = j.val; omega

/-- Window 8's block at any point is the whole of the array it stages. -/
theorem iblk8_apply (c : Dev nD) (t : Fin cfg0.N) (k : Fin 256) (j : Fin 64) :
    (iblk m c 8 t : S256x64.Idx → EReal) (ix2 k j) = (V m c main_v11 : S256x64.Idx → EReal) (ix2 k j) := by
  obtain ⟨-, -, -, -, -, -, -, -, -, -, -, -, -, -, -, -, -, e0, e1, -⟩ := idx_facts t
  unfold iblk
  rw [View.read_apply]
  show (V m c main_v11 : S256x64.Idx → EReal) _ = _
  congr 1
  funext a; apply Fin.ext
  match a with
  | ⟨0, _⟩ => show win0_8.index t (0 : Fin 2) * 256 + 1 * k.val = k.val; omega
  | ⟨1, _⟩ => show win0_8.index t (1 : Fin 2) * 64 + 1 * j.val = j.val; omega

/-- Window 9's block at any point is the whole of the array it stages. -/
theorem iblk9_apply (c : Dev nD) (t : Fin cfg0.N) (k : Fin 1) (j : Fin 64) :
    (iblk m c 9 t : S1x64.Idx → EReal) (ix2 k j) = (V m c main_v12 : S1x64.Idx → EReal) (ix2 k j) := by
  obtain ⟨-, -, -, -, -, -, -, -, -, -, -, -, -, -, -, -, -, -, -, e0, e1, -⟩ := idx_facts t
  unfold iblk
  rw [View.read_apply]
  show (V m c main_v12 : S1x64.Idx → EReal) _ = _
  congr 1
  funext a; apply Fin.ext
  match a with
  | ⟨0, _⟩ => show win0_9.index t (0 : Fin 2) * 1 + 1 * k.val = k.val; omega
  | ⟨1, _⟩ => show win0_9.index t (1 : Fin 2) * 64 + 1 * j.val = j.val; omega

/-- Window 10's block at any point is the whole of the array it stages. -/
theorem iblk10_apply (c : Dev nD) (t : Fin cfg0.N) (k : Fin 64) (j : Fin 32) :
    (iblk m c 10 t : S64x32.Idx → EReal) (ix2 k j) = (V m c main_v14 : S64x32.Idx → EReal) (ix2 k j) := by
  obtain ⟨-, -, -, -, -, -, -, -, -, -, -, -, -, -, -, -, -, -, -, -, -, e0, e1, -⟩ := idx_facts t
  unfold iblk
  rw [View.read_apply]
  show (V m c main_v14 : S64x32.Idx → EReal) _ = _
  congr 1
  funext a; apply Fin.ext
  match a with
  | ⟨0, _⟩ => show win0_10.index t (0 : Fin 2) * 64 + 1 * k.val = k.val; omega
  | ⟨1, _⟩ => show win0_10.index t (1 : Fin 2) * 32 + 1 * j.val = j.val; omega

/-- Window 11's block at any point is the whole of the array it stages. -/
theorem iblk11_apply (c : Dev nD) (t : Fin cfg0.N) (k : Fin 1) (j : Fin 32) :
    (iblk m c 11 t : S1x32.Idx → EReal) (ix2 k j) = (V m c main_v15 : S1x32.Idx → EReal) (ix2 k j) := by
  obtain ⟨-, -, -, -, -, -, -, -, -, -, -, -, -, -, -, -, -, -, -, -, -, -, -, e0, e1, -⟩ := idx_facts t
  unfold iblk
  rw [View.read_apply]
  show (V m c main_v15 : S1x32.Idx → EReal) _ = _
  congr 1
  funext a; apply Fin.ext
  match a with
  | ⟨0, _⟩ => show win0_11.index t (0 : Fin 2) * 1 + 1 * k.val = k.val; omega
  | ⟨1, _⟩ => show win0_11.index t (1 : Fin 2) * 32 + 1 * j.val = j.val; omega

/-- Window 12's block at any point is the whole of the array it stages. -/
theorem iblk12_apply (c : Dev nD) (t : Fin cfg0.N) (k : Fin 32) (j : Fin 16) :
    (iblk m c 12 t : S32x16.Idx → EReal) (ix2 k j) = (V m c main_v17 : S32x16.Idx → EReal) (ix2 k j) := by
  obtain ⟨-, -, -, -, -, -, -, -, -, -, -, -, -, -, -, -, -, -, -, -, -, -, -, -, -, e0, e1, -⟩ := idx_facts t
  unfold iblk
  rw [View.read_apply]
  show (V m c main_v17 : S32x16.Idx → EReal) _ = _
  congr 1
  funext a; apply Fin.ext
  match a with
  | ⟨0, _⟩ => show win0_12.index t (0 : Fin 2) * 32 + 1 * k.val = k.val; omega
  | ⟨1, _⟩ => show win0_12.index t (1 : Fin 2) * 16 + 1 * j.val = j.val; omega

/-- Window 13's block at any point is the whole of the array it stages. -/
theorem iblk13_apply (c : Dev nD) (t : Fin cfg0.N) (k : Fin 1) (j : Fin 16) :
    (iblk m c 13 t : S1x16.Idx → EReal) (ix2 k j) = (V m c main_v18 : S1x16.Idx → EReal) (ix2 k j) := by
  obtain ⟨-, -, -, -, -, -, -, -, -, -, -, -, -, -, -, -, -, -, -, -, -, -, -, -, -, -, -, e0, e1, -⟩ := idx_facts t
  unfold iblk
  rw [View.read_apply]
  show (V m c main_v18 : S1x16.Idx → EReal) _ = _
  congr 1
  funext a; apply Fin.ext
  match a with
  | ⟨0, _⟩ => show win0_13.index t (0 : Fin 2) * 1 + 1 * k.val = k.val; omega
  | ⟨1, _⟩ => show win0_13.index t (1 : Fin 2) * 16 + 1 * j.val = j.val; omega

/-- Window 14's block at any point is the whole of the array it stages. -/
theorem iblk14_apply (c : Dev nD) (t : Fin cfg0.N) (k : Fin 16) (j : Fin 3) :
    (iblk m c 14 t : S16x3.Idx → EReal) (ix2 k j) = (V m c main_v20 : S16x3.Idx → EReal) (ix2 k j) := by
  obtain ⟨-, -, -, -, -, -, -, -, -, -, -, -, -, -, -, -, -, -, -, -, -, -, -, -, -, -, -, -, -, e0, e1, -⟩ := idx_facts t
  unfold iblk
  rw [View.read_apply]
  show (V m c main_v20 : S16x3.Idx → EReal) _ = _
  congr 1
  funext a; apply Fin.ext
  match a with
  | ⟨0, _⟩ => show win0_14.index t (0 : Fin 2) * 16 + 1 * k.val = k.val; omega
  | ⟨1, _⟩ => show win0_14.index t (1 : Fin 2) * 3 + 1 * j.val = j.val; omega

/-- Window 15's block at any point is the whole of the array it stages. -/
theorem iblk15_apply (c : Dev nD) (t : Fin cfg0.N) (k : Fin 1) (j : Fin 3) :
    (iblk m c 15 t : S1x3.Idx → EReal) (ix2 k j) = (V m c main_v21 : S1x3.Idx → EReal) (ix2 k j) := by
  obtain ⟨-, -, -, -, -, -, -, -, -, -, -, -, -, -, -, -, -, -, -, -, -, -, -, -, -, -, -, -, -, -, -, e0, e1, -⟩ := idx_facts t
  unfold iblk
  rw [View.read_apply]
  show (V m c main_v21 : S1x3.Idx → EReal) _ = _
  congr 1
  funext a; apply Fin.ext
  match a with
  | ⟨0, _⟩ => show win0_15.index t (0 : Fin 2) * 1 + 1 * k.val = k.val; omega
  | ⟨1, _⟩ => show win0_15.index t (1 : Fin 2) * 3 + 1 * j.val = j.val; omega

end Cert.KernelIdeal.ArrValue

end
-- ==== Proof.KernelMatmul.lean ====
/-
  The six matrix products of the kernel body read at an entry.  At the exact instance a product into a zero
  accumulator is the plain sum over the contracted axis; the operand indices at output entry `(p, q)` and
  contraction position `k` are `(p, k)` (or `(k, p)` for the product that contracts the left operand's
  first axis) and `(k, q)`.
-/
import proofs.«128643_j23106924052863_2_alg».proof.Proof.Gen.KernelIdeal
import Idealize.ShloMosaic.Lib.ValueIdx
import Idealize.ShloMosaic.PureOps.Ideal.Laws

noncomputable section

namespace Cert.KernelIdeal.Row

open Cert.KernelIdeal Cert.KernelIdeal.Gen Idealize.ShloMosaic Idealize.ShloMosaic.ValueIdx

/-- Entry `(p, q)` of the 4096 × 256 product into a zero accumulator is `∑ₖ a k p · b k q` over the 5 contracted positions. -/
theorem mm_x {φ₁ φ₂ : FTy} (a : FVec Ideal S5x4096 φ₁) (b : FVec Ideal S5x256 φ₂) (p : Fin 4096) (q : Fin 256) :
    matmul dot_S5x4096_S5x256_S4096x256_0_0_1_1_n_n none a b (constant (F := Ideal) S4096x256 .f32 0x00000000#32) (ix2 p q)
      = ∑ k : Fin 5, a (ix2 k p) * b (ix2 k q) := by
  refine (Ideal.matmul_constant_zero_apply dot_S5x4096_S5x256_S4096x256_0_0_1_1_n_n none a b (ix2 p q)).trans ?_
  rw [← Equiv.sum_comp (contrEquiv1 dot_S5x4096_S5x256_S4096x256_0_0_1_1_n_n 5 rfl rfl).symm]
  refine Finset.sum_congr rfl fun k _ => ?_
  have hk := contrEquiv1_symm_val dot_S5x4096_S5x256_S4096x256_0_0_1_1_n_n 5 rfl rfl k
  have el : dot_S5x4096_S5x256_S4096x256_0_0_1_1_n_n.lhsIdx (ix2 p q) ((contrEquiv1 dot_S5x4096_S5x256_S4096x256_0_0_1_1_n_n 5 rfl rfl).symm k) = ix2 k p :=
    funext fun ax => Fin.ext (by
      match ax with
      | ⟨1, _⟩ =>
        show (dot_S5x4096_S5x256_S4096x256_0_0_1_1_n_n.lhsIdx (ix2 p q) _ 1).val = p.val
        unfold DotDims.lhsIdx
        rw [dif_neg (show ¬(1 : Fin S5x4096.rank) ∈ dot_S5x4096_S5x256_S4096x256_0_0_1_1_n_n.lhsBatch by decide),
          dif_pos (show (1 : Fin S5x4096.rank) ∈ dot_S5x4096_S5x256_S4096x256_0_0_1_1_n_n.lhsNonContracting by decide)]
        rfl
      | ⟨0, _⟩ => exact (dot_S5x4096_S5x256_S4096x256_0_0_1_1_n_n.lhsIdx_val_of_single rfl (ix2 p q) _).trans hk)
  have er : dot_S5x4096_S5x256_S4096x256_0_0_1_1_n_n.rhsIdx (ix2 p q) ((contrEquiv1 dot_S5x4096_S5x256_S4096x256_0_0_1_1_n_n 5 rfl rfl).symm k) = ix2 k q :=
    funext fun ax => Fin.ext (by
      match ax with
      | ⟨0, _⟩ => exact (dot_S5x4096_S5x256_S4096x256_0_0_1_1_n_n.rhsIdx_val_of_single rfl (ix2 p q) _).trans hk
      | ⟨1, _⟩ =>
        show (dot_S5x4096_S5x256_S4096x256_0_0_1_1_n_n.rhsIdx (ix2 p q) _ 1).val = q.val
        unfold DotDims.rhsIdx
        rw [dif_neg (show ¬(1 : Fin S5x256.rank) ∈ dot_S5x4096_S5x256_S4096x256_0_0_1_1_n_n.rhsBatch by decide),
          dif_pos (show (1 : Fin S5x256.rank) ∈ dot_S5x4096_S5x256_S4096x256_0_0_1_1_n_n.rhsNonContracting by decide)]
        rfl)
  rw [el, er]

/-- Entry `(p, q)` of the 4096 × 256 product into a zero accumulator is `∑ₖ a p k · b k q` over the 64 contracted positions. -/
theorem mm_h {φ₁ φ₂ : FTy} (a : FVec Ideal S4096x64 φ₁) (b : FVec Ideal S64x256 φ₂) (p : Fin 4096) (q : Fin 256) :
    matmul dot_S4096x64_S64x256_S4096x256_1_0_0_1_n_n none a b (constant (F := Ideal) S4096x256 .f32 0x00000000#32) (ix2 p q)
      = ∑ k : Fin 64, a (ix2 p k) * b (ix2 k q) := by
  refine (Ideal.matmul_constant_zero_apply dot_S4096x64_S64x256_S4096x256_1_0_0_1_n_n none a b (ix2 p q)).trans ?_
  rw [← Equiv.sum_comp (contrEquiv1 dot_S4096x64_S64x256_S4096x256_1_0_0_1_n_n 64 rfl rfl).symm]
  refine Finset.sum_congr rfl fun k _ => ?_
  have hk := contrEquiv1_symm_val dot_S4096x64_S64x256_S4096x256_1_0_0_1_n_n 64 rfl rfl k
  have el : dot_S4096x64_S64x256_S4096x256_1_0_0_1_n_n.lhsIdx (ix2 p q) ((contrEquiv1 dot_S4096x64_S64x256_S4096x256_1_0_0_1_n_n 64 rfl rfl).symm k) = ix2 p k :=
    funext fun ax => Fin.ext (by
      match ax with
      | ⟨0, _⟩ =>
        show (dot_S4096x64_S64x256_S4096x256_1_0_0_1_n_n.lhsIdx (ix2 p q) _ 0).val = p.val
        unfold DotDims.lhsIdx
        rw [dif_neg (show ¬(0 : Fin S4096x64.rank) ∈ dot_S4096x64_S64x256_S4096x256_1_0_0_1_n_n.lhsBatch by decide),
          dif_pos (show (0 : Fin S4096x64.rank) ∈ dot_S4096x64_S64x256_S4096x256_1_0_0_1_n_n.lhsNonContracting by decide)]
        rfl
      | ⟨1, _⟩ => exact (dot_S4096x64_S64x256_S4096x256_1_0_0_1_n_n.lhsIdx_val_of_single rfl (ix2 p q) _).trans hk)
  have er : dot_S4096x64_S64x256_S4096x256_1_0_0_1_n_n.rhsIdx (ix2 p q) ((contrEquiv1 dot_S4096x64_S64x256_S4096x256_1_0_0_1_n_n 64 rfl rfl).symm k) = ix2 k q :=
    funext fun ax => Fin.ext (by
      match ax with
      | ⟨0, _⟩ => exact (dot_S4096x64_S64x256_S4096x256_1_0_0_1_n_n.rhsIdx_val_of_single rfl (ix2 p q) _).trans hk
      | ⟨1, _⟩ =>
        show (dot_S4096x64_S64x256_S4096x256_1_0_0_1_n_n.rhsIdx (ix2 p q) _ 1).val = q.val
        unfold DotDims.rhsIdx
        rw [dif_neg (show ¬(1 : Fin S64x256.rank) ∈ dot_S4096x64_S64x256_S4096x256_1_0_0_1_n_n.rhsBatch by decide),
          dif_pos (show (1 : Fin S64x256.rank) ∈ dot_S4096x64_S64x256_S4096x256_1_0_0_1_n_n.rhsNonContracting by decide)]
        rfl)
  rw [el, er]

/-- Entry `(p, q)` of the 4096 × 64 product into a zero accumulator is `∑ₖ a p k · b k q` over the 256 contracted positions. -/
theorem mm_2 {φ₁ φ₂ : FTy} (a : FVec Ideal S4096x256 φ₁) (b : FVec Ideal S256x64 φ₂) (p : Fin 4096) (q : Fin 64) :
    matmul dot_S4096x256_S256x64_S4096x64_1_0_0_1_n_n none a b (constant (F := Ideal) S4096x64 .f32 0x00000000#32) (ix2 p q)
      = ∑ k : Fin 256, a (ix2 p k) * b (ix2 k q) := by
  refine (Ideal.matmul_constant_zero_apply dot_S4096x256_S256x64_S4096x64_1_0_0_1_n_n none a b (ix2 p q)).trans ?_
  rw [← Equiv.sum_comp (contrEquiv1 dot_S4096x256_S256x64_S4096x64_1_0_0_1_n_n 256 rfl rfl).symm]
  refine Finset.sum_congr rfl fun k _ => ?_
  have hk := contrEquiv1_symm_val dot_S4096x256_S256x64_S4096x64_1_0_0_1_n_n 256 rfl rfl k
  have el : dot_S4096x256_S256x64_S4096x64_1_0_0_1_n_n.lhsIdx (ix2 p q) ((contrEquiv1 dot_S4096x256_S256x64_S4096x64_1_0_0_1_n_n 256 rfl rfl).symm k) = ix2 p k :=
    funext fun ax => Fin.ext (by
      match ax with
      | ⟨0, _⟩ =>
        show (dot_S4096x256_S256x64_S4096x64_1_0_0_1_n_n.lhsIdx (ix2 p q) _ 0).val = p.val
        unfold DotDims.lhsIdx
        rw [dif_neg (show ¬(0 : Fin S4096x256.rank) ∈ dot_S4096x256_S256x64_S4096x64_1_0_0_1_n_n.lhsBatch by decide),
          dif_pos (show (0 : Fin S4096x256.rank) ∈ dot_S4096x256_S256x64_S4096x64_1_0_0_1_n_n.lhsNonContracting by decide)]
        rfl
      | ⟨1, _⟩ => exact (dot_S4096x256_S256x64_S4096x64_1_0_0_1_n_n.lhsIdx_val_of_single rfl (ix2 p q) _).trans hk)
  have er : dot_S4096x256_S256x64_S4096x64_1_0_0_1_n_n.rhsIdx (ix2 p q) ((contrEquiv1 dot_S4096x256_S256x64_S4096x64_1_0_0_1_n_n 256 rfl rfl).symm k) = ix2 k q :=
    funext fun ax => Fin.ext (by
      match ax with
      | ⟨0, _⟩ => exact (dot_S4096x256_S256x64_S4096x64_1_0_0_1_n_n.rhsIdx_val_of_single rfl (ix2 p q) _).trans hk
      | ⟨1, _⟩ =>
        show (dot_S4096x256_S256x64_S4096x64_1_0_0_1_n_n.rhsIdx (ix2 p q) _ 1).val = q.val
        unfold DotDims.rhsIdx
        rw [dif_neg (show ¬(1 : Fin S256x64.rank) ∈ dot_S4096x256_S256x64_S4096x64_1_0_0_1_n_n.rhsBatch by decide),
          dif_pos (show (1 : Fin S256x64.rank) ∈ dot_S4096x256_S256x64_S4096x64_1_0_0_1_n_n.rhsNonContracting by decide)]
        rfl)
  rw [el, er]

/-- Entry `(p, q)` of the 4096 × 32 product into a zero accumulator is `∑ₖ a p k · b k q` over the 64 contracted positions. -/
theorem mm_3 {φ₁ φ₂ : FTy} (a : FVec Ideal S4096x64 φ₁) (b : FVec Ideal S64x32 φ₂) (p : Fin 4096) (q : Fin 32) :
    matmul dot_S4096x64_S64x32_S4096x32_1_0_0_1_n_n none a b (constant (F := Ideal) S4096x32 .f32 0x00000000#32) (ix2 p q)
      = ∑ k : Fin 64, a (ix2 p k) * b (ix2 k q) := by
  refine (Ideal.matmul_constant_zero_apply dot_S4096x64_S64x32_S4096x32_1_0_0_1_n_n none a b (ix2 p q)).trans ?_
  rw [← Equiv.sum_comp (contrEquiv1 dot_S4096x64_S64x32_S4096x32_1_0_0_1_n_n 64 rfl rfl).symm]
  refine Finset.sum_congr rfl fun k _ => ?_
  have hk := contrEquiv1_symm_val dot_S4096x64_S64x32_S4096x32_1_0_0_1_n_n 64 rfl rfl k
  have el : dot_S4096x64_S64x32_S4096x32_1_0_0_1_n_n.lhsIdx (ix2 p q) ((contrEquiv1 dot_S4096x64_S64x32_S4096x32_1_0_0_1_n_n 64 rfl rfl).symm k) = ix2 p k :=
    funext fun ax => Fin.ext (by
      match ax with
      | ⟨0, _⟩ =>
        show (dot_S4096x64_S64x32_S4096x32_1_0_0_1_n_n.lhsIdx (ix2 p q) _ 0).val = p.val
        unfold DotDims.lhsIdx
        rw [dif_neg (show ¬(0 : Fin S4096x64.rank) ∈ dot_S4096x64_S64x32_S4096x32_1_0_0_1_n_n.lhsBatch by decide),
          dif_pos (show (0 : Fin S4096x64.rank) ∈ dot_S4096x64_S64x32_S4096x32_1_0_0_1_n_n.lhsNonContracting by decide)]
        rfl
      | ⟨1, _⟩ => exact (dot_S4096x64_S64x32_S4096x32_1_0_0_1_n_n.lhsIdx_val_of_single rfl (ix2 p q) _).trans hk)
  have er : dot_S4096x64_S64x32_S4096x32_1_0_0_1_n_n.rhsIdx (ix2 p q) ((contrEquiv1 dot_S4096x64_S64x32_S4096x32_1_0_0_1_n_n 64 rfl rfl).symm k) = ix2 k q :=
    funext fun ax => Fin.ext (by
      match ax with
      | ⟨0, _⟩ => exact (dot_S4096x64_S64x32_S4096x32_1_0_0_1_n_n.rhsIdx_val_of_single rfl (ix2 p q) _).trans hk
      | ⟨1, _⟩ =>
        show (dot_S4096x64_S64x32_S4096x32_1_0_0_1_n_n.rhsIdx (ix2 p q) _ 1).val = q.val
        unfold DotDims.rhsIdx
        rw [dif_neg (show ¬(1 : Fin S64x32.rank) ∈ dot_S4096x64_S64x32_S4096x32_1_0_0_1_n_n.rhsBatch by decide),
          dif_pos (show (1 : Fin S64x32.rank) ∈ dot_S4096x64_S64x32_S4096x32_1_0_0_1_n_n.rhsNonContracting by decide)]
        rfl)
  rw [el, er]

/-- Entry `(p, q)` of the 4096 × 16 product into a zero accumulator is `∑ₖ a p k · b k q` over the 32 contracted positions. -/
theorem mm_4 {φ₁ φ₂ : FTy} (a : FVec Ideal S4096x32 φ₁) (b : FVec Ideal S32x16 φ₂) (p : Fin 4096) (q : Fin 16) :
    matmul dot_S4096x32_S32x16_S4096x16_1_0_0_1_n_n none a b (constant (F := Ideal) S4096x16 .f32 0x00000000#32) (ix2 p q)
      = ∑ k : Fin 32, a (ix2 p k) * b (ix2 k q) := by
  refine (Ideal.matmul_constant_zero_apply dot_S4096x32_S32x16_S4096x16_1_0_0_1_n_n none a b (ix2 p q)).trans ?_
  rw [← Equiv.sum_comp (contrEquiv1 dot_S4096x32_S32x16_S4096x16_1_0_0_1_n_n 32 rfl rfl).symm]
  refine Finset.sum_congr rfl fun k _ => ?_
  have hk := contrEquiv1_symm_val dot_S4096x32_S32x16_S4096x16_1_0_0_1_n_n 32 rfl rfl k
  have el : dot_S4096x32_S32x16_S4096x16_1_0_0_1_n_n.lhsIdx (ix2 p q) ((contrEquiv1 dot_S4096x32_S32x16_S4096x16_1_0_0_1_n_n 32 rfl rfl).symm k) = ix2 p k :=
    funext fun ax => Fin.ext (by
      match ax with
      | ⟨0, _⟩ =>
        show (dot_S4096x32_S32x16_S4096x16_1_0_0_1_n_n.lhsIdx (ix2 p q) _ 0).val = p.val
        unfold DotDims.lhsIdx
        rw [dif_neg (show ¬(0 : Fin S4096x32.rank) ∈ dot_S4096x32_S32x16_S4096x16_1_0_0_1_n_n.lhsBatch by decide),
          dif_pos (show (0 : Fin S4096x32.rank) ∈ dot_S4096x32_S32x16_S4096x16_1_0_0_1_n_n.lhsNonContracting by decide)]
        rfl
      | ⟨1, _⟩ => exact (dot_S4096x32_S32x16_S4096x16_1_0_0_1_n_n.lhsIdx_val_of_single rfl (ix2 p q) _).trans hk)
  have er : dot_S4096x32_S32x16_S4096x16_1_0_0_1_n_n.rhsIdx (ix2 p q) ((contrEquiv1 dot_S4096x32_S32x16_S4096x16_1_0_0_1_n_n 32 rfl rfl).symm k) = ix2 k q :=
    funext fun ax => Fin.ext (by
      match ax with
      | ⟨0, _⟩ => exact (dot_S4096x32_S32x16_S4096x16_1_0_0_1_n_n.rhsIdx_val_of_single rfl (ix2 p q) _).trans hk
      | ⟨1, _⟩ =>
        show (dot_S4096x32_S32x16_S4096x16_1_0_0_1_n_n.rhsIdx (ix2 p q) _ 1).val = q.val
        unfold DotDims.rhsIdx
        rw [dif_neg (show ¬(1 : Fin S32x16.rank) ∈ dot_S4096x32_S32x16_S4096x16_1_0_0_1_n_n.rhsBatch by decide),
          dif_pos (show (1 : Fin S32x16.rank) ∈ dot_S4096x32_S32x16_S4096x16_1_0_0_1_n_n.rhsNonContracting by decide)]
        rfl)
  rw [el, er]

/-- Entry `(p, q)` of the 4096 × 3 product into a zero accumulator is `∑ₖ a p k · b k q` over the 16 contracted positions. -/
theorem mm_5 {φ₁ φ₂ : FTy} (a : FVec Ideal S4096x16 φ₁) (b : FVec Ideal S16x3 φ₂) (p : Fin 4096) (q : Fin 3) :
    matmul dot_S4096x16_S16x3_S4096x3_1_0_0_1_n_n none a b (constant (F := Ideal) S4096x3 .f32 0x00000000#32) (ix2 p q)
      = ∑ k : Fin 16, a (ix2 p k) * b (ix2 k q) := by
  refine (Ideal.matmul_constant_zero_apply dot_S4096x16_S16x3_S4096x3_1_0_0_1_n_n none a b (ix2 p q)).trans ?_
  rw [← Equiv.sum_comp (contrEquiv1 dot_S4096x16_S16x3_S4096x3_1_0_0_1_n_n 16 rfl rfl).symm]
  refine Finset.sum_congr rfl fun k _ => ?_
  have hk := contrEquiv1_symm_val dot_S4096x16_S16x3_S4096x3_1_0_0_1_n_n 16 rfl rfl k
  have el : dot_S4096x16_S16x3_S4096x3_1_0_0_1_n_n.lhsIdx (ix2 p q) ((contrEquiv1 dot_S4096x16_S16x3_S4096x3_1_0_0_1_n_n 16 rfl rfl).symm k) = ix2 p k :=
    funext fun ax => Fin.ext (by
      match ax with
      | ⟨0, _⟩ =>
        show (dot_S4096x16_S16x3_S4096x3_1_0_0_1_n_n.lhsIdx (ix2 p q) _ 0).val = p.val
        unfold DotDims.lhsIdx
        rw [dif_neg (show ¬(0 : Fin S4096x16.rank) ∈ dot_S4096x16_S16x3_S4096x3_1_0_0_1_n_n.lhsBatch by decide),
          dif_pos (show (0 : Fin S4096x16.rank) ∈ dot_S4096x16_S16x3_S4096x3_1_0_0_1_n_n.lhsNonContracting by decide)]
        rfl
      | ⟨1, _⟩ => exact (dot_S4096x16_S16x3_S4096x3_1_0_0_1_n_n.lhsIdx_val_of_single rfl (ix2 p q) _).trans hk)
  have er : dot_S4096x16_S16x3_S4096x3_1_0_0_1_n_n.rhsIdx (ix2 p q) ((contrEquiv1 dot_S4096x16_S16x3_S4096x3_1_0_0_1_n_n 16 rfl rfl).symm k) = ix2 k q :=
    funext fun ax => Fin.ext (by
      match ax with
      | ⟨0, _⟩ => exact (dot_S4096x16_S16x3_S4096x3_1_0_0_1_n_n.rhsIdx_val_of_single rfl (ix2 p q) _).trans hk
      | ⟨1, _⟩ =>
        show (dot_S4096x16_S16x3_S4096x3_1_0_0_1_n_n.rhsIdx (ix2 p q) _ 1).val = q.val
        unfold DotDims.rhsIdx
        rw [dif_neg (show ¬(1 : Fin S16x3.rank) ∈ dot_S4096x16_S16x3_S4096x3_1_0_0_1_n_n.rhsBatch by decide),
          dif_pos (show (1 : Fin S16x3.rank) ∈ dot_S4096x16_S16x3_S4096x3_1_0_0_1_n_n.rhsNonContracting by decide)]
        rfl)
  rw [el, er]

end Cert.KernelIdeal.Row

end
-- ==== Proof.KernelStep.lean ====
/-
  The first recurrent step of the kernel body, read at row `p` of the block.
  The pre-activations are the two products plus the broadcast bias row; the gate nonlinearity is applied
  to all 256 columns at once and the four groups of 64 columns are then cut out of it, which at an entry is
  the same as applying it to the column `o + j` of the pre-activations.
-/
import proofs.«128643_j23106924052863_2_alg».proof.Proof.Gen.KernelIdeal.Skeleton
import proofs.«128643_j23106924052863_2_alg».proof.Proof.KernelMatmul
import proofs.«128643_j23106924052863_2_alg».proof.Proof.Spec
import Idealize.ShloMosaic.Lib.ValueLayout
import Idealize.ShloMosaic.Lib.Pipeline.Value

noncomputable section

namespace Cert.KernelIdeal.Row

open Cert.KernelIdeal Cert.KernelIdeal.Gen Idealize.ShloMosaic Idealize.ShloMosaic.ValueIdx

/-- The pre-activations of the first step at row `p`, column `q`. -/
theorem pay5_at (v0 : Vec Ideal S1x5x4096 .f32) (v4 : Vec Ideal S4096x64 .f32) (v6 : Vec Ideal S5x256 .bf16)
    (v8 : Vec Ideal S64x256 .bf16) (v10 : Vec Ideal S1x256 .f32) (p : Fin 4096) (q : Fin 256) :
    k0_pay5 (F := Ideal) v0 v4 v6 v8 v10 (ix2 p q)
      = Cert.Lstm.gates (fun k => v0 (ix3 0 k p)) (fun k => v4 (ix2 p k)) (fun k j => v6 (ix2 k j))
          (fun k j => v8 (ix2 k j)) (fun j => v10 (ix2 0 j)) q := by
  unfold k0_pay5 k0_pay2 k0_pay3 k0_pay4 Cert.Lstm.gates
  refine congrArg₂ (· + ·) (congrArg₂ (· + ·) ?_ ?_) ?_
  · refine (mm_x _ _ p q).trans (Finset.sum_congr rfl fun k _ => ?_)
    rw [shapeCast_self]
    exact congrArg (· * v6 (ix2 k q)) (shapeCast_1ab_ab_apply v0 _ k p)
  · refine (mm_h _ _ p q).trans (Finset.sum_congr rfl fun k _ => ?_)
    rw [shapeCast_self]
    rfl
  · rw [shapeCast_self]
    exact broadcastTo_1b_ab_apply v10 _ p q

/-- The gate nonlinearity of the first step at an entry. -/
theorem pay6_at (v0 : Vec Ideal S1x5x4096 .f32) (v4 : Vec Ideal S4096x64 .f32) (v6 : Vec Ideal S5x256 .bf16)
    (v8 : Vec Ideal S64x256 .bf16) (v10 : Vec Ideal S1x256 .f32) (i : S4096x256.Idx) :
    k0_pay6 (F := Ideal) v0 v4 v6 v8 v10 i = Cert.Lstm.sigT (k0_pay5 (F := Ideal) v0 v4 v6 v8 v10 i) := rfl

/-- The cell state after the first step at row `p`, column `j`. -/
theorem pay7_at (v0 : Vec Ideal S1x5x4096 .f32) (v4 v5 : Vec Ideal S4096x64 .f32) (v6 : Vec Ideal S5x256 .bf16)
    (v8 : Vec Ideal S64x256 .bf16) (v10 : Vec Ideal S1x256 .f32) (p : Fin 4096) (j : Fin 64) :
    k0_pay7 (F := Ideal) v0 v4 v5 v6 v8 v10 (ix2 p j)
      = Cert.Lstm.cellNext Cert.Lstm.sigT (fun q => k0_pay5 (F := Ideal) v0 v4 v6 v8 v10 (ix2 p q))
          (fun k => v5 (ix2 p k)) j := by
  unfold k0_pay7 Cert.Lstm.cellNext Cert.Lstm.col
  refine congrArg₂ (· + ·) (congrArg₂ (· * ·) ?_ rfl) (congrArg₂ (· * ·) ?_ (congrArg Ideal.tanh ?_))
  · exact (slice2_axis1_eq 64 _ _ p j).trans (pay6_at v0 v4 v6 v8 v10 _)
  · exact (slice2_axis1_eq 0 _ _ p j).trans (pay6_at v0 v4 v6 v8 v10 _)
  · exact slice2_axis1_eq 128 _ _ p j

/-- The hidden state after the first step at row `p`, column `j`. -/
theorem pay8_at (v0 : Vec Ideal S1x5x4096 .f32) (v4 v5 : Vec Ideal S4096x64 .f32) (v6 : Vec Ideal S5x256 .bf16)
    (v8 : Vec Ideal S64x256 .bf16) (v10 : Vec Ideal S1x256 .f32) (p : Fin 4096) (j : Fin 64) :
    k0_pay8 (F := Ideal) v0 v4 v5 v6 v8 v10 (ix2 p j)
      = Cert.Lstm.hidNext Cert.Lstm.sigT (fun q => k0_pay5 (F := Ideal) v0 v4 v6 v8 v10 (ix2 p q))
          (fun k => v5 (ix2 p k)) j := by
  unfold k0_pay8 Cert.Lstm.hidNext
  refine congrArg₂ (· * ·) ?_ (congrArg Ideal.tanh (pay7_at v0 v4 v5 v6 v8 v10 p j))
  exact (slice2_axis1_eq 192 _ _ p j).trans (pay6_at v0 v4 v6 v8 v10 _)

end Cert.KernelIdeal.Row

end
-- ==== Proof.KernelMlp.lean ====
/-
  The second recurrent step and the rectified affine layers of the kernel body, read at row `p` of the block.
  Every layer is a product into a zero accumulator plus a broadcast bias row, so at an entry it is the affine
  function of row `p` of its operand; the rectifier is pointwise.
-/
import proofs.«128643_j23106924052863_2_alg».proof.Proof.Gen.KernelIdeal.Skeleton
import proofs.«128643_j23106924052863_2_alg».proof.Proof.KernelMatmul
import proofs.«128643_j23106924052863_2_alg».proof.Proof.Spec
import Idealize.ShloMosaic.Lib.ValueLayout
import Idealize.ShloMosaic.Lib.Pipeline.Value

noncomputable section

namespace Cert.KernelIdeal.Row

open Cert.KernelIdeal Cert.KernelIdeal.Gen Idealize.ShloMosaic Idealize.ShloMosaic.ValueIdx

/-- The rectifier at an entry. -/
theorem relu_at {s : Shape} (z : FVec Ideal s .f32) (i : s.Idx) :
    maximumf z (broadcast s (Scalar.ofBits (F := Ideal) .f32 0x00000000#32)) i = Cert.Lstm.relu (z i) := rfl

/-- The 64 → 256 layer at an entry. -/
theorem dense1_at (z : FVec Ideal S4096x64 .f32) (w : FVec Ideal S64x256 .bf16) (b : FVec Ideal S1x256 .f32)
    (p : Fin 4096) (q : Fin 256) :
    addf (matmul dot_S4096x64_S64x256_S4096x256_1_0_0_1_n_n none (truncf .bf16 z bitsLt_bf16_f32)
        (shapeCast S64x256 w shapeCasts_S64x256_S64x256) (constant (F := Ideal) S4096x256 .f32 0x00000000#32))
      (broadcastTo S4096x256 (shapeCast S1x256 b shapeCasts_S1x256_S1x256) broadcasts_S1x256_S4096x256) (ix2 p q)
      = Cert.Lstm.affine (fun k => z (ix2 p k)) (fun k j => w (ix2 k j)) (fun j => b (ix2 0 j)) q := by
  unfold Cert.Lstm.affine
  refine congrArg₂ (· + ·) ((mm_h _ _ p q).trans (Finset.sum_congr rfl fun k _ => ?_)) ?_
  · rw [shapeCast_self]; rfl
  · rw [shapeCast_self]; exact broadcastTo_1b_ab_apply b _ p q

/-- The 256 → 64 layer at an entry. -/
theorem dense2_at (z : FVec Ideal S4096x256 .f32) (w : FVec Ideal S256x64 .bf16) (b : FVec Ideal S1x64 .f32)
    (p : Fin 4096) (q : Fin 64) :
    addf (matmul dot_S4096x256_S256x64_S4096x64_1_0_0_1_n_n none (truncf .bf16 z bitsLt_bf16_f32)
        (shapeCast S256x64 w shapeCasts_S256x64_S256x64) (constant (F := Ideal) S4096x64 .f32 0x00000000#32))
      (broadcastTo S4096x64 (shapeCast S1x64 b shapeCasts_S1x64_S1x64) broadcasts_S1x64_S4096x64) (ix2 p q)
      = Cert.Lstm.affine (fun k => z (ix2 p k)) (fun k j => w (ix2 k j)) (fun j => b (ix2 0 j)) q := by
  unfold Cert.Lstm.affine
  refine congrArg₂ (· + ·) ((mm_2 _ _ p q).trans (Finset.sum_congr rfl fun k _ => ?_)) ?_
  · rw [shapeCast_self]; rfl
  · rw [shapeCast_self]; exact broadcastTo_1b_ab_apply b _ p q

/-- The 64 → 32 layer at an entry. -/
theorem dense3_at (z : FVec Ideal S4096x64 .f32) (w : FVec Ideal S64x32 .bf16) (b : FVec Ideal S1x32 .f32)
    (p : Fin 4096) (q : Fin 32) :
    addf (matmul dot_S4096x64_S64x32_S4096x32_1_0_0_1_n_n none (truncf .bf16 z bitsLt_bf16_f32)
        (shapeCast S64x32 w shapeCasts_S64x32_S64x32) (constant (F := Ideal) S4096x32 .f32 0x00000000#32))
      (broadcastTo S4096x32 (shapeCast S1x32 b shapeCasts_S1x32_S1x32) broadcasts_S1x32_S4096x32) (ix2 p q)
      = Cert.Lstm.affine (fun k => z (ix2 p k)) (fun k j => w (ix2 k j)) (fun j => b (ix2 0 j)) q := by
  unfold Cert.Lstm.affine
  refine congrArg₂ (· + ·) ((mm_3 _ _ p q).trans (Finset.sum_congr rfl fun k _ => ?_)) ?_
  · rw [shapeCast_self]; rfl
  · rw [shapeCast_self]; exact broadcastTo_1b_ab_apply b _ p q

/-- The 32 → 16 layer at an entry. -/
theorem dense4_at (z : FVec Ideal S4096x32 .f32) (w : FVec Ideal S32x16 .bf16) (b : FVec Ideal S1x16 .f32)
    (p : Fin 4096) (q : Fin 16) :
    addf (matmul dot_S4096x32_S32x16_S4096x16_1_0_0_1_n_n none (truncf .bf16 z bitsLt_bf16_f32)
        (shapeCast S32x16 w shapeCasts_S32x16_S32x16) (constant (F := Ideal) S4096x16 .f32 0x00000000#32))
      (broadcastTo S4096x16 (shapeCast S1x16 b shapeCasts_S1x16_S1x16) broadcasts_S1x16_S4096x16) (ix2 p q)
      = Cert.Lstm.affine (fun k => z (ix2 p k)) (fun k j => w (ix2 k j)) (fun j => b (ix2 0 j)) q := by
  unfold Cert.Lstm.affine
  refine congrArg₂ (· + ·) ((mm_4 _ _ p q).trans (Finset.sum_congr rfl fun k _ => ?_)) ?_
  · rw [shapeCast_self]; rfl
  · rw [shapeCast_self]; exact broadcastTo_1b_ab_apply b _ p q

/-- The 16 → 3 head at an entry. -/
theorem dense5_at (z : FVec Ideal S4096x16 .f32) (w : FVec Ideal S16x3 .bf16) (b : FVec Ideal S1x3 .f32)
    (p : Fin 4096) (q : Fin 3) :
    addf (matmul dot_S4096x16_S16x3_S4096x3_1_0_0_1_n_n none (truncf .bf16 z bitsLt_bf16_f32)
        (shapeCast S16x3 w shapeCasts_S16x3_S16x3) (constant (F := Ideal) S4096x3 .f32 0x00000000#32))
      (broadcastTo S4096x3 (shapeCast S1x3 b shapeCasts_S1x3_S1x3) broadcasts_S1x3_S4096x3) (ix2 p q)
      = Cert.Lstm.affine (fun k => z (ix2 p k)) (fun k j => w (ix2 k j)) (fun j => b (ix2 0 j)) q := by
  unfold Cert.Lstm.affine
  refine congrArg₂ (· + ·) ((mm_5 _ _ p q).trans (Finset.sum_congr rfl fun k _ => ?_)) ?_
  · rw [shapeCast_self]; rfl
  · rw [shapeCast_self]; exact broadcastTo_1b_ab_apply b _ p q

/-- The pre-activations of the second step: the two products and the bias row. -/
def g2V (v7 : FVec Ideal S5x256 .bf16) (v9 : FVec Ideal S64x256 .bf16) (v11 : FVec Ideal S1x256 .f32)
    (v35 : FVec Ideal S4096x64 .f32) (v36 : FVec Ideal S5x4096 .bf16) : FVec Ideal S4096x256 .f32 :=
  addf (addf (matmul dot_S5x4096_S5x256_S4096x256_0_0_1_1_n_n none v36 v7 (constant (F := Ideal) S4096x256 .f32 0x00000000#32))
      (matmul dot_S4096x64_S64x256_S4096x256_1_0_0_1_n_n none (truncf .bf16 v35 bitsLt_bf16_f32) v9
        (constant (F := Ideal) S4096x256 .f32 0x00000000#32)))
    (broadcastTo S4096x256 v11 broadcasts_S1x256_S4096x256)

theorem g2V_at (v7 : FVec Ideal S5x256 .bf16) (v9 : FVec Ideal S64x256 .bf16) (v11 : FVec Ideal S1x256 .f32)
    (v35 : FVec Ideal S4096x64 .f32) (v36 : FVec Ideal S5x4096 .bf16) (p : Fin 4096) (q : Fin 256) :
    g2V v7 v9 v11 v35 v36 (ix2 p q)
      = Cert.Lstm.gates (fun k => v36 (ix2 k p)) (fun k => v35 (ix2 p k)) (fun k j => v7 (ix2 k j))
          (fun k j => v9 (ix2 k j)) (fun j => v11 (ix2 0 j)) q := by
  unfold g2V Cert.Lstm.gates
  refine congrArg₂ (· + ·) (congrArg₂ (· + ·) (mm_x _ _ p q) ((mm_h _ _ p q).trans rfl)) ?_
  exact broadcastTo_1b_ab_apply v11 _ p q

/-- The gate nonlinearity on all 256 columns. -/
def sV (g : FVec Ideal S4096x256 .f32) : FVec Ideal S4096x256 .f32 :=
  addf (mulf (broadcast S4096x256 (Scalar.ofBits (F := Ideal) .f32 0x3F000000#32))
      (tanh (mulf (broadcast S4096x256 (Scalar.ofBits (F := Ideal) .f32 0x3F000000#32)) g)))
    (broadcast S4096x256 (Scalar.ofBits (F := Ideal) .f32 0x3F000000#32))

theorem sV_at (g : FVec Ideal S4096x256 .f32) (i : S4096x256.Idx) : sV g i = Cert.Lstm.sigT (g i) := rfl

/-- The cell state of a step from its pre-activations and the previous cell state. -/
def cV (g : FVec Ideal S4096x256 .f32) (c : FVec Ideal S4096x64 .f32) : FVec Ideal S4096x64 .f32 :=
  addf (mulf (extractStridedSlice S4096x64 ![0, 64] (sV g) slices_S4096x256_o0_64_S4096x64) c)
    (mulf (extractStridedSlice S4096x64 ![0, 0] (sV g) slices_S4096x256_o0_0_S4096x64)
      (tanh (extractStridedSlice S4096x64 ![0, 128] g slices_S4096x256_o0_128_S4096x64)))

theorem cV_at (g : FVec Ideal S4096x256 .f32) (c : FVec Ideal S4096x64 .f32) (p : Fin 4096) (j : Fin 64) :
    cV g c (ix2 p j) = Cert.Lstm.cellNext Cert.Lstm.sigT (fun q => g (ix2 p q)) (fun k => c (ix2 p k)) j := by
  unfold cV Cert.Lstm.cellNext Cert.Lstm.col
  refine congrArg₂ (· + ·) (congrArg₂ (· * ·) ?_ rfl) (congrArg₂ (· * ·) ?_ (congrArg Ideal.tanh ?_))
  · exact (slice2_axis1_eq 64 _ _ p j).trans (sV_at g _)
  · exact (slice2_axis1_eq 0 _ _ p j).trans (sV_at g _)
  · exact slice2_axis1_eq 128 _ _ p j

/-- The hidden state of a step. -/
def hV (g : FVec Ideal S4096x256 .f32) (c : FVec Ideal S4096x64 .f32) : FVec Ideal S4096x64 .f32 :=
  mulf (extractStridedSlice S4096x64 ![0, 192] (sV g) slices_S4096x256_o0_192_S4096x64) (tanh (cV g c))

theorem hV_at (g : FVec Ideal S4096x256 .f32) (c : FVec Ideal S4096x64 .f32) (p : Fin 4096) (j : Fin 64) :
    hV g c (ix2 p j) = Cert.Lstm.hidNext Cert.Lstm.sigT (fun q => g (ix2 p q)) (fun k => c (ix2 p k)) j := by
  unfold hV Cert.Lstm.hidNext
  refine congrArg₂ (· * ·) ?_ (congrArg Ideal.tanh (cV_at g c p j))
  exact (slice2_axis1_eq 192 _ _ p j).trans (sV_at g _)

/-- The second step, the rectifier and the first two layers at row `p`, column `j`. -/
theorem pay10_at (v7 : FVec Ideal S5x256 .bf16) (v9 : FVec Ideal S64x256 .bf16) (v11 : FVec Ideal S1x256 .f32)
    (v33 v35 : FVec Ideal S4096x64 .f32) (v36 : FVec Ideal S5x4096 .bf16) (v62 : Vec Ideal S64x256 .bf16)
    (v64 : Vec Ideal S1x256 .f32) (v72 : Vec Ideal S256x64 .bf16) (v74 : Vec Ideal S1x64 .f32)
    (p : Fin 4096) (j : Fin 64) :
    k0_pay10 (F := Ideal) v7 v9 v11 v33 v35 v36 (constant (F := Ideal) S4096x256 .f32 0x00000000#32) v62 v64 v72 v74 (ix2 p j)
      = Cert.Lstm.affine (fun q => Cert.Lstm.relu (Cert.Lstm.affine (fun k => Cert.Lstm.relu
            (Cert.Lstm.hidNext Cert.Lstm.sigT
              (Cert.Lstm.gates (fun k => v36 (ix2 k p)) (fun k => v35 (ix2 p k)) (fun k j => v7 (ix2 k j))
                (fun k j => v9 (ix2 k j)) (fun j => v11 (ix2 0 j)))
              (fun k => v33 (ix2 p k)) k))
          (fun k j => v62 (ix2 k j)) (fun j => v64 (ix2 0 j)) q))
        (fun k j => v72 (ix2 k j)) (fun j => v74 (ix2 0 j)) j := by
  show addf (matmul dot_S4096x256_S256x64_S4096x64_1_0_0_1_n_n none (truncf .bf16
      (maximumf (addf (matmul dot_S4096x64_S64x256_S4096x256_1_0_0_1_n_n none (truncf .bf16
          (maximumf (hV (g2V v7 v9 v11 v35 v36) v33) (broadcast S4096x64 (Scalar.ofBits (F := Ideal) .f32 0x00000000#32)))
          bitsLt_bf16_f32) (shapeCast S64x256 v62 shapeCasts_S64x256_S64x256) (constant (F := Ideal) S4096x256 .f32 0x00000000#32))
        (broadcastTo S4096x256 (shapeCast S1x256 v64 shapeCasts_S1x256_S1x256) broadcasts_S1x256_S4096x256))
        (broadcast S4096x256 (Scalar.ofBits (F := Ideal) .f32 0x00000000#32))) bitsLt_bf16_f32)
      (shapeCast S256x64 v72 shapeCasts_S256x64_S256x64) (constant (F := Ideal) S4096x64 .f32 0x00000000#32))
    (broadcastTo S4096x64 (shapeCast S1x64 v74 shapeCasts_S1x64_S1x64) broadcasts_S1x64_S4096x64) (ix2 p j) = _
  refine (dense2_at _ v72 v74 p j).trans ?_
  refine congrArg (fun z => Cert.Lstm.affine z _ _ j) (funext fun q => (relu_at _ _).trans (congrArg Cert.Lstm.relu ?_))
  refine (dense1_at _ v62 v64 p q).trans ?_
  refine congrArg (fun z => Cert.Lstm.affine z _ _ q) (funext fun k => (relu_at _ _).trans (congrArg Cert.Lstm.relu ?_))
  refine (hV_at _ v33 p k).trans ?_
  exact congrArg (fun g => Cert.Lstm.hidNext Cert.Lstm.sigT g _ k) (funext fun q' => g2V_at v7 v9 v11 v35 v36 p q')

/-- The last rectifier, the 64 → 32 and 32 → 16 layers and the head at row `p`, column `j`. -/
theorem pay1_at (v79 : FVec Ideal S4096x64 .f32) (v82 : Vec Ideal S64x32 .bf16) (v84 : Vec Ideal S1x32 .f32)
    (v92 : Vec Ideal S32x16 .bf16) (v94 : Vec Ideal S1x16 .f32) (v102 : Vec Ideal S16x3 .bf16) (v104 : Vec Ideal S1x3 .f32)
    (p : Fin 4096) (j : Fin 3) :
    k0_pay1 (F := Ideal) v79 (Scalar.ofBits (F := Ideal) .f32 0x00000000#32) v82 v84 v92 v94 v102 v104 (ix2 p j)
      = Cert.Lstm.affine (fun q => Cert.Lstm.relu (Cert.Lstm.affine (fun k => Cert.Lstm.relu
            (Cert.Lstm.affine (fun k' => Cert.Lstm.relu (v79 (ix2 p k')))
              (fun k j => v82 (ix2 k j)) (fun j => v84 (ix2 0 j)) k))
          (fun k j => v92 (ix2 k j)) (fun j => v94 (ix2 0 j)) q))
        (fun k j => v102 (ix2 k j)) (fun j => v104 (ix2 0 j)) j := by
  unfold k0_pay1
  refine (dense5_at _ v102 v104 p j).trans ?_
  refine congrArg (fun z => Cert.Lstm.affine z _ _ j) (funext fun q => (relu_at _ _).trans (congrArg Cert.Lstm.relu ?_))
  refine (dense4_at _ v92 v94 p q).trans ?_
  refine congrArg (fun z => Cert.Lstm.affine z _ _ q) (funext fun k => (relu_at _ _).trans (congrArg Cert.Lstm.relu ?_))
  refine (dense3_at _ v82 v84 p k).trans ?_
  exact congrArg (fun z => Cert.Lstm.affine z _ _ k) (funext fun k' => relu_at v79 _)

end Cert.KernelIdeal.Row

end
-- ==== Proof.KernelRow.lean ====
/-
  One row of the kernel's output block.  The body's single store writes, at row `p` and column `j` of the
  4096 × 3 block, the network's output `j` for the row whose inputs are column `p` of the two 5 × 4096 input
  slices and row `p` of the two 4096 × 64 state blocks, with the gate nonlinearity spelt through `tanh`.
-/
import proofs.«128643_j23106924052863_2_alg».proof.Proof.Gen.KernelIdeal.Frame
import proofs.«128643_j23106924052863_2_alg».proof.Proof.KernelStep
import proofs.«128643_j23106924052863_2_alg».proof.Proof.KernelMlp
import proofs.«128643_j23106924052863_2_alg».proof.Proof.Spec
import Idealize.ShloMosaic.Lib.ValueIdx

noncomputable section

namespace Cert.KernelIdeal.Row

open Cert.KernelIdeal Cert.KernelIdeal.Gen Idealize.ShloMosaic Idealize.ShloMosaic.ValueIdx

theorem zero2 : (![0, 0] : Fin 2 → Nat) = fun _ => 0 := funext fun a => by fin_cases a <;> rfl

/-- The first time slice of the input block, read at feature `k`, row `p`. -/
theorem ld_slice0 (x0 : Vec Ideal S2x5x4096 .f32) (k : Fin 5) (p : Fin 4096) :
    View.ld x0 r0_0 (ix3 0 k p) = x0 (ix3 0 k p) :=
  congrArg x0 (funext fun a => Fin.ext (by
    match a with
    | ⟨0, _⟩ => rfl
    | ⟨1, _⟩ => show 0 + 1 * k.val = k.val; omega
    | ⟨2, _⟩ => show 0 + 1 * p.val = p.val; omega))

/-- The second time slice of the input block, read at feature `k`, row `p`. -/
theorem ld_slice1 (x0 : Vec Ideal S2x5x4096 .f32) (k : Fin 5) (p : Fin 4096) :
    View.ld x0 r0_1 (ix3 0 k p) = x0 (ix3 1 k p) :=
  congrArg x0 (funext fun a => Fin.ext (by
    match a with
    | ⟨0, _⟩ => rfl
    | ⟨1, _⟩ => show 0 + 1 * k.val = k.val; omega
    | ⟨2, _⟩ => show 0 + 1 * p.val = p.val; omega))

theorem out_row (x0 : Vec Ideal S2x5x4096 .f32) (x1 x2 : Vec Ideal S4096x64 .f32) (x3 : Vec Ideal S5x256 .bf16) (x4 : Vec Ideal S64x256 .bf16) (x5 : Vec Ideal S1x256 .f32) (x6 : Vec Ideal S64x256 .bf16) (x7 : Vec Ideal S1x256 .f32) (x8 : Vec Ideal S256x64 .bf16) (x9 : Vec Ideal S1x64 .f32) (x10 : Vec Ideal S64x32 .bf16) (x11 : Vec Ideal S1x32 .f32) (x12 : Vec Ideal S32x16 .bf16) (x13 : Vec Ideal S1x16 .f32) (x14 : Vec Ideal S16x3 .bf16) (x15 : Vec Ideal S1x3 .f32) (p : Fin 4096) (j : Fin 3) :
    out0_16 (F := Ideal) x0 x1 x2 x3 x4 x5 x6 x7 x8 x9 x10 x11 x12 x13 x14 x15 (ix2 p j)
      = Cert.Lstm.rowOut Cert.Lstm.sigT (Cert.Lstm.wtsBlk x3 x4 x5 x6 x7 x8 x9 x10 x11 x12 x13 x14 x15)
          (fun k => x0 (ix3 0 k p)) (fun k => x0 (ix3 1 k p)) (fun k => x1 (ix2 p k)) (fun k => x2 (ix2 p k)) j := by
  unfold out0_16
  rw [View.canon_unit_zero zero2]
  simp only [View.ld_unit_zero (S := S4096x64) zero2, View.ld_unit_zero (S := S5x256) zero2,
    View.ld_unit_zero (S := S64x256) zero2, View.ld_unit_zero (S := S1x256) zero2,
    View.ld_unit_zero (S := S256x64) zero2, View.ld_unit_zero (S := S1x64) zero2,
    View.ld_unit_zero (S := S64x32) zero2, View.ld_unit_zero (S := S1x32) zero2,
    View.ld_unit_zero (S := S32x16) zero2, View.ld_unit_zero (S := S1x16) zero2,
    View.ld_unit_zero (S := S16x3) zero2, View.ld_unit_zero (S := S1x3) zero2]
  have h2 : k0_pay2 (F := Ideal) x3 = x3 := shapeCast_self _ _
  have h3 : k0_pay3 (F := Ideal) x4 = x4 := shapeCast_self _ _
  have h4 : k0_pay4 (F := Ideal) x5 = x5 := shapeCast_self _ _
  rw [h2, h3, h4]
  have e5 : (fun q => k0_pay5 (F := Ideal) (View.ld x0 r0_0) x1 x3 x4 x5 (ix2 p q))
      = Cert.Lstm.g1 (Cert.Lstm.wtsBlk x3 x4 x5 x6 x7 x8 x9 x10 x11 x12 x13 x14 x15)
          (fun k => x0 (ix3 0 k p)) (fun k => x1 (ix2 p k)) :=
    funext fun q => (pay5_at _ x1 x3 x4 x5 p q).trans
      (congrArg (fun x => Cert.Lstm.gates x _ _ _ _ q) (funext fun k => ld_slice0 x0 k p))
  have e7 : (fun k => k0_pay7 (F := Ideal) (View.ld x0 r0_0) x1 x2 x3 x4 x5 (ix2 p k))
      = Cert.Lstm.c1 Cert.Lstm.sigT (Cert.Lstm.wtsBlk x3 x4 x5 x6 x7 x8 x9 x10 x11 x12 x13 x14 x15)
          (fun k => x0 (ix3 0 k p)) (fun k => x1 (ix2 p k)) (fun k => x2 (ix2 p k)) :=
    funext fun k => (pay7_at _ x1 x2 x3 x4 x5 p k).trans (by rw [e5]; rfl)
  have e8 : (fun k => k0_pay8 (F := Ideal) (View.ld x0 r0_0) x1 x2 x3 x4 x5 (ix2 p k))
      = Cert.Lstm.h1 Cert.Lstm.sigT (Cert.Lstm.wtsBlk x3 x4 x5 x6 x7 x8 x9 x10 x11 x12 x13 x14 x15)
          (fun k => x0 (ix3 0 k p)) (fun k => x1 (ix2 p k)) (fun k => x2 (ix2 p k)) :=
    funext fun k => (pay8_at _ x1 x2 x3 x4 x5 p k).trans (by rw [e5]; rfl)
  have e9 : (fun k => k0_pay9 (F := Ideal) (View.ld x0 r0_1) (ix2 k p)) = fun k => x0 (ix3 1 k p) :=
    funext fun k => (shapeCast_1ab_ab_apply (View.ld x0 r0_1) _ k p).trans (ld_slice1 x0 k p)
  refine (pay1_at _ x10 x11 x12 x13 x14 x15 p j).trans ?_
  refine congrArg (fun z => Cert.Lstm.affine (fun q => Cert.Lstm.relu (Cert.Lstm.affine (fun k => Cert.Lstm.relu
      (Cert.Lstm.affine z _ _ k)) _ _ q)) _ _ j) (funext fun k' => congrArg Cert.Lstm.relu ?_)
  refine (pay10_at x3 x4 x5 _ _ _ x6 x7 x8 x9 p k').trans ?_
  rw [e9, e8, e7]
  rfl

end Cert.KernelIdeal.Row

end
-- ==== Proof.KernelArrHost.lean ====
/-
  The arrays the host prepares before the region, read at an index.  The two time slices of the input are
  stored with the row axis last (a transpose of the last two axes of the argument); each weight matrix is
  the transpose of its argument, narrowed to bf16 (the identity on the extended reals); each bias is its
  argument as a one-row matrix, the recurrent bias the sum of its two arguments.
-/
import proofs.«128643_j23106924052863_2_alg».proof.Proof.Gen.KernelIdeal.Frame
import Idealize.ShloMosaic.Lib.ValueIdx
import Idealize.ShloMosaic.Lib.ValueLayout
import Idealize.ShloMosaic.Lib.StableHlo.Run

noncomputable section

namespace Cert.KernelIdeal.ArrValue

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The staged input at time slice `s`, feature `k`, row `r` is the argument at `(s, r, k)`. -/
theorem V_v0_apply (c : Dev nD) (s : Fin 2) (k : Fin 5) (r : Fin 262144) :
    (V m c main_v0 : S2x5x262144.Idx → EReal) (ix3 s k r)
      = (m ((c : Thread nD τ).loc main_arg0) : S2x262144x5.Idx → EReal) (ix3 s r k) := by
  have e : (V m c main_v0 : S2x5x262144.Idx → EReal)
      = transpose S2x5x262144 [0, 2, 1] (m ((c : Thread nD τ).loc main_arg0) : S2x262144x5.Idx → EReal) transposes_S2x262144x5_S2x5x262144_0_2_1 := by
    dsimp only [Gen.V, Gen.hostOps0]
    after_results
  rw [e]
  exact transpose_ix3_021_apply _ _ s k r

/-- The staged block of the first step's input weights at `(k, j)` is the argument at `(j, k)`. -/
theorem V_v2_apply (c : Dev nD) (k : Fin 5) (j : Fin 256) :
    (V m c main_v2 : S5x256.Idx → EReal) (ix2 k j)
      = (m ((c : Thread nD τ).loc main_arg3) : S256x5.Idx → EReal) (ix2 j k) := by
  have e : (V m c main_v2 : S5x256.Idx → EReal)
      = truncf .bf16 (transpose S5x256 [1, 0] (m ((c : Thread nD τ).loc main_arg3) : S256x5.Idx → EReal) transposes_S256x5_S5x256_1_0 : FVec Ideal S5x256 .f32) bitsLt_bf16_f32 := by
    dsimp only [Gen.V, Gen.hostOps0]
    after_results
  rw [e]
  exact transpose_ix2_apply _ _ k j

/-- The staged block of the recurrent weights at `(k, j)` is the argument at `(j, k)`. -/
theorem V_v4_apply (c : Dev nD) (k : Fin 64) (j : Fin 256) :
    (V m c main_v4 : S64x256.Idx → EReal) (ix2 k j)
      = (m ((c : Thread nD τ).loc main_arg4) : S256x64.Idx → EReal) (ix2 j k) := by
  have e : (V m c main_v4 : S64x256.Idx → EReal)
      = truncf .bf16 (transpose S64x256 [1, 0] (m ((c : Thread nD τ).loc main_arg4) : S256x64.Idx → EReal) transposes_S256x64_S64x256_1_0 : FVec Ideal S64x256 .f32) bitsLt_bf16_f32 := by
    dsimp only [Gen.V, Gen.hostOps0]
    after_results
  rw [e]
  exact transpose_ix2_apply _ _ k j

/-- The staged block of the first layer's weights at `(k, j)` is the argument at `(j, k)`. -/
theorem V_v8_apply (c : Dev nD) (k : Fin 64) (j : Fin 256) :
    (V m c main_v8 : S64x256.Idx → EReal) (ix2 k j)
      = (m ((c : Thread nD τ).loc main_arg7) : S256x64.Idx → EReal) (ix2 j k) := by
  have e : (V m c main_v8 : S64x256.Idx → EReal)
      = truncf .bf16 (transpose S64x256 [1, 0] (m ((c : Thread nD τ).loc main_arg7) : S256x64.Idx → EReal) transposes_S256x64_S64x256_1_0 : FVec Ideal S64x256 .f32) bitsLt_bf16_f32 := by
    dsimp only [Gen.V, Gen.hostOps0]
    after_results
  rw [e]
  exact transpose_ix2_apply _ _ k j

/-- The staged block of the second layer's weights at `(k, j)` is the argument at `(j, k)`. -/
theorem V_v11_apply (c : Dev nD) (k : Fin 256) (j : Fin 64) :
    (V m c main_v11 : S256x64.Idx → EReal) (ix2 k j)
      = (m ((c : Thread nD τ).loc main_arg9) : S64x256.Idx → EReal) (ix2 j k) := by
  have e : (V m c main_v11 : S256x64.Idx → EReal)
      = truncf .bf16 (transpose S256x64 [1, 0] (m ((c : Thread nD τ).loc main_arg9) : S64x256.Idx → EReal) transposes_S64x256_S256x64_1_0 : FVec Ideal S256x64 .f32) bitsLt_bf16_f32 := by
    dsimp only [Gen.V, Gen.hostOps0]
    after_results
  rw [e]
  exact transpose_ix2_apply _ _ k j

/-- The staged block of the third layer's weights at `(k, j)` is the argument at `(j, k)`. -/
theorem V_v14_apply (c : Dev nD) (k : Fin 64) (j : Fin 32) :
    (V m c main_v14 : S64x32.Idx → EReal) (ix2 k j)
      = (m ((c : Thread nD τ).loc main_arg11) : S32x64.Idx → EReal) (ix2 j k) := by
  have e : (V m c main_v14 : S64x32.Idx → EReal)
      = truncf .bf16 (transpose S64x32 [1, 0] (m ((c : Thread nD τ).loc main_arg11) : S32x64.Idx → EReal) transposes_S32x64_S64x32_1_0 : FVec Ideal S64x32 .f32) bitsLt_bf16_f32 := by
    dsimp only [Gen.V, Gen.hostOps0]
    after_results
  rw [e]
  exact transpose_ix2_apply _ _ k j

/-- The staged block of the fourth layer's weights at `(k, j)` is the argument at `(j, k)`. -/
theorem V_v17_apply (c : Dev nD) (k : Fin 32) (j : Fin 16) :
    (V m c main_v17 : S32x16.Idx → EReal) (ix2 k j)
      = (m ((c : Thread nD τ).loc main_arg13) : S16x32.Idx → EReal) (ix2 j k) := by
  have e : (V m c main_v17 : S32x16.Idx → EReal)
      = truncf .bf16 (transpose S32x16 [1, 0] (m ((c : Thread nD τ).loc main_arg13) : S16x32.Idx → EReal) transposes_S16x32_S32x16_1_0 : FVec Ideal S32x16 .f32) bitsLt_bf16_f32 := by
    dsimp only [Gen.V, Gen.hostOps0]
    after_results
  rw [e]
  exact transpose_ix2_apply _ _ k j

/-- The staged block of the head's weights at `(k, j)` is the argument at `(j, k)`. -/
theorem V_v20_apply (c : Dev nD) (k : Fin 16) (j : Fin 3) :
    (V m c main_v20 : S16x3.Idx → EReal) (ix2 k j)
      = (m ((c : Thread nD τ).loc main_arg15) : S3x16.Idx → EReal) (ix2 j k) := by
  have e : (V m c main_v20 : S16x3.Idx → EReal)
      = truncf .bf16 (transpose S16x3 [1, 0] (m ((c : Thread nD τ).loc main_arg15) : S3x16.Idx → EReal) transposes_S3x16_S16x3_1_0 : FVec Ideal S16x3 .f32) bitsLt_bf16_f32 := by
    dsimp only [Gen.V, Gen.hostOps0]
    after_results
  rw [e]
  exact transpose_ix2_apply _ _ k j

/-- The staged recurrent bias at `(u, j)` is the sum of the two bias arguments at `j`. -/
theorem V_v6_apply (c : Dev nD) (u : Fin 1) (j : Fin 256) :
    (V m c main_v6 : S1x256.Idx → EReal) (ix2 u j)
      = (show EReal from (m ((c : Thread nD τ).loc main_arg5) : S256.Idx → EReal) (ix1 j)) + (show EReal from (m ((c : Thread nD τ).loc main_arg6) : S256.Idx → EReal) (ix1 j)) := by
  have e : (V m c main_v6 : S1x256.Idx → EReal)
      = shapeCast S1x256 (addf (F := Ideal) (φ := .f32) (m ((c : Thread nD τ).loc main_arg5) : FVec Ideal S256 .f32) (m ((c : Thread nD τ).loc main_arg6) : FVec Ideal S256 .f32)) shapeCasts_S256_S1x256 := by
    dsimp only [Gen.V, Gen.hostOps0]
    after_results
    rfl
  rw [e]
  exact shapeCast_a_1a_apply _ _ u j

/-- The staged block of the first layer's bias at `(u, j)` is the argument at `j`. -/
theorem V_v9_apply (c : Dev nD) (u : Fin 1) (j : Fin 256) :
    (V m c main_v9 : S1x256.Idx → EReal) (ix2 u j)
      = (m ((c : Thread nD τ).loc main_arg8) : S256.Idx → EReal) (ix1 j) := by
  have e : (V m c main_v9 : S1x256.Idx → EReal)
      = shapeCast S1x256 (m ((c : Thread nD τ).loc main_arg8) : S256.Idx → EReal) shapeCasts_S256_S1x256 := by
    dsimp only [Gen.V, Gen.hostOps0]
    after_results
    rfl
  rw [e]
  exact shapeCast_a_1a_apply _ _ u j

/-- The staged block of the second layer's bias at `(u, j)` is the argument at `j`. -/
theorem V_v12_apply (c : Dev nD) (u : Fin 1) (j : Fin 64) :
    (V m c main_v12 : S1x64.Idx → EReal) (ix2 u j)
      = (m ((c : Thread nD τ).loc main_arg10) : S64.Idx → EReal) (ix1 j) := by
  have e : (V m c main_v12 : S1x64.Idx → EReal)
      = shapeCast S1x64 (m ((c : Thread nD τ).loc main_arg10) : S64.Idx → EReal) shapeCasts_S64_S1x64 := by
    dsimp only [Gen.V, Gen.hostOps0]
    after_results
    rfl
  rw [e]
  exact shapeCast_a_1a_apply _ _ u j

/-- The staged block of the third layer's bias at `(u, j)` is the argument at `j`. -/
theorem V_v15_apply (c : Dev nD) (u : Fin 1) (j : Fin 32) :
    (V m c main_v15 : S1x32.Idx → EReal) (ix2 u j)
      = (m ((c : Thread nD τ).loc main_arg12) : S32.Idx → EReal) (ix1 j) := by
  have e : (V m c main_v15 : S1x32.Idx → EReal)
      = shapeCast S1x32 (m ((c : Thread nD τ).loc main_arg12) : S32.Idx → EReal) shapeCasts_S32_S1x32 := by
    dsimp only [Gen.V, Gen.hostOps0]
    after_results
    rfl
  rw [e]
  exact shapeCast_a_1a_apply _ _ u j

/-- The staged block of the fourth layer's bias at `(u, j)` is the argument at `j`. -/
theorem V_v18_apply (c : Dev nD) (u : Fin 1) (j : Fin 16) :
    (V m c main_v18 : S1x16.Idx → EReal) (ix2 u j)
      = (m ((c : Thread nD τ).loc main_arg14) : S16.Idx → EReal) (ix1 j) := by
  have e : (V m c main_v18 : S1x16.Idx → EReal)
      = shapeCast S1x16 (m ((c : Thread nD τ).loc main_arg14) : S16.Idx → EReal) shapeCasts_S16_S1x16 := by
    dsimp only [Gen.V, Gen.hostOps0]
    after_results
    rfl
  rw [e]
  exact shapeCast_a_1a_apply _ _ u j

/-- The staged block of the head's bias at `(u, j)` is the argument at `j`. -/
theorem V_v21_apply (c : Dev nD) (u : Fin 1) (j : Fin 3) :
    (V m c main_v21 : S1x3.Idx → EReal) (ix2 u j)
      = (m ((c : Thread nD τ).loc main_arg16) : S3.Idx → EReal) (ix1 j) := by
  have e : (V m c main_v21 : S1x3.Idx → EReal)
      = shapeCast S1x3 (m ((c : Thread nD τ).loc main_arg16) : S3.Idx → EReal) shapeCasts_S3_S1x3 := by
    dsimp only [Gen.V, Gen.hostOps0]
    after_results
    rfl
  rw [e]
  exact shapeCast_a_1a_apply _ _ u j

end Cert.KernelIdeal.ArrValue

end
-- ==== Proof.KernelArrFlushed.lean ====
/-
  What a grid point writes back is its block of the whole result array.  Row `p` of the block written at point
  `t` is the network's output for row `4096 t + p` of the arguments: the body's row function is applied to the
  blocks' rows, which are the arguments' rows, and the blocks of weights hold the arguments' matrices with the
  contracted axis first, the biases as rows, the two recurrent biases added.
-/
import proofs.«128643_j23106924052863_2_alg».proof.Proof.Gen.KernelIdeal.Value
import proofs.«128643_j23106924052863_2_alg».proof.Proof.Spec
import proofs.«128643_j23106924052863_2_alg».proof.Proof.KernelRow
import proofs.«128643_j23106924052863_2_alg».proof.Proof.KernelArrHost
import proofs.«128643_j23106924052863_2_alg».proof.Proof.KernelArrBlocks

noncomputable section

namespace Cert.KernelIdeal.ArrValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The row function at equal weights and equal inputs. -/
theorem rowOut_congr {σ : EReal → EReal} {P Q : Cert.Lstm.Wts} {x0 x0' x1 x1' : Fin 5 → EReal} {h h' c c' : Fin 64 → EReal}
    (hP : P = Q) (h0 : x0 = x0') (h1 : x1 = x1') (hh : h = h') (hc : c = c') (j : Fin 3) :
    Cert.Lstm.rowOut σ P x0 x1 h c j = Cert.Lstm.rowOut σ Q x0' x1' h' c' j := by
  subst hP h0 h1 hh hc; rfl

/-- The result array at row `r`, column `j`. -/
theorem G_apply (σ : EReal → EReal) (P : Cert.Lstm.Wts) (x : S2x262144x5.Idx → EReal) (h0 c0 : S262144x64.Idx → EReal)
    (r : Fin 262144) (j : Fin 3) :
    Cert.Lstm.G σ P x h0 c0 (ix2 r j)
      = Cert.Lstm.rowOut σ P (fun k => x (ix3 0 r k)) (fun k => x (ix3 1 r k)) (fun k => h0 (ix2 r k)) (fun k => c0 (ix2 r k)) j := rfl

/-- The resident blocks at any point hold the arguments' weights: each matrix transposed, each bias as a row, the
    two recurrent biases added. -/
theorem wts_eq (c : Dev nD) (t : Fin cfg0.N) :
    Cert.Lstm.wtsBlk (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
      = (Cert.Lstm.wtsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  unfold Cert.Lstm.wtsBlk Cert.Lstm.wtsOf
  rw [Cert.Lstm.Wts.mk.injEq]
  refine ⟨?_, ?_, ?_, ?_, ?_, ?_, ?_, ?_, ?_, ?_, ?_, ?_, ?_⟩
  · funext k j; exact (iblk3_apply m c t k j).trans (V_v2_apply m c k j)
  · funext k j; exact (iblk4_apply m c t k j).trans (V_v4_apply m c k j)
  · funext j; exact (iblk5_apply m c t 0 j).trans (V_v6_apply m c 0 j)
  · funext k j; exact (iblk6_apply m c t k j).trans (V_v8_apply m c k j)
  · funext j; exact (iblk7_apply m c t 0 j).trans (V_v9_apply m c 0 j)
  · funext k j; exact (iblk8_apply m c t k j).trans (V_v11_apply m c k j)
  · funext j; exact (iblk9_apply m c t 0 j).trans (V_v12_apply m c 0 j)
  · funext k j; exact (iblk10_apply m c t k j).trans (V_v14_apply m c k j)
  · funext j; exact (iblk11_apply m c t 0 j).trans (V_v15_apply m c 0 j)
  · funext k j; exact (iblk12_apply m c t k j).trans (V_v17_apply m c k j)
  · funext j; exact (iblk13_apply m c t 0 j).trans (V_v18_apply m c 0 j)
  · funext k j; exact (iblk14_apply m c t k j).trans (V_v20_apply m c k j)
  · funext j; exact (iblk15_apply m c t 0 j).trans (V_v21_apply m c 0 j)

/-- Row `p`, column `j` of what the body leaves at point `t` is the network's output `j` for row `r = 4096 t + p` of the
    arguments. -/
theorem out_row_args (c : Dev nD) (t : Fin cfg0.N) (p : Fin 4096) (j : Fin 3) (r : Fin 262144)
    (hr : r.val = t.val * 4096 + p.val) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 p j)
      = Cert.Lstm.G Cert.Lstm.sigT (Cert.Lstm.wtsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)))
          (m ((c : Thread nD τ).loc main_arg0)) (m ((c : Thread nD τ).loc main_arg1)) (m ((c : Thread nD τ).loc main_arg2)) (ix2 r j) := by
  rw [G_apply]
  refine (Row.out_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p j).trans ?_
  refine rowOut_congr (wts_eq m c t) ?_ ?_ ?_ ?_ j
  · funext k; exact (iblk0_apply m c t 0 k p r hr).trans (V_v0_apply m c 0 k r)
  · funext k; exact (iblk0_apply m c t 1 k p r hr).trans (V_v0_apply m c 1 k r)
  · funext k; exact (iblk1_apply m c t p k r hr).trans (congrFun (V_main_arg1 m c) (ix2 r k))
  · funext k; exact (iblk2_apply m c t p k r hr).trans (congrFun (V_main_arg2 m c) (ix2 r k))

/-- WHAT POINT `t` WRITES BACK is block `t` of the result array. -/
theorem flushed_eq (c : Dev nD) (t : Fin cfg0.N) :
    (dats m 0 c).flushed 16 t = ((cfg0.win 16).blk t).view.read (Elt Ideal)
      (Cert.Lstm.G Cert.Lstm.sigT (Cert.Lstm.wtsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)))
        (m ((c : Thread nD τ).loc main_arg0)) (m ((c : Thread nD τ).loc main_arg1)) (m ((c : Thread nD τ).loc main_arg2))) := by
  rw [Value.flushed16]
  funext y
  obtain ⟨p, j, rfl⟩ : ∃ (p : Fin 4096) (j : Fin 3), y = ix2 p j := ⟨y 0, y 1, eq_ix2 y⟩
  have hN : grid0.N = 64 := Gen.N_0
  have ht : t.val < 64 := hN ▸ t.isLt
  obtain ⟨-, -, -, -, -, -, -, -, -, -, -, -, -, -, -, -, -, -, -, -, -, -, -, -, -, -, -, -, -, -, -, -, -, e0, e1⟩ := idx_facts t
  have hx : (cfg0.win 16).xinj (grid0.coords t) (ix2 p j) = (ix2 p j : S4096x3.Idx) :=
    funext fun a => match a with | ⟨0, _⟩ => rfl | ⟨1, _⟩ => rfl
  have hemb : ((cfg0.win 16).blk t).view.emb (ix2 p j)
      = (ix2 (⟨t.val * 4096 + p.val, by have := p.isLt; omega⟩ : Fin 262144) j : S262144x3.Idx) := by
    funext a; apply Fin.ext
    match a with
    | ⟨0, _⟩ => show win0_16.index t (0 : Fin 2) * 4096 + 1 * p.val = t.val * 4096 + p.val; omega
    | ⟨1, _⟩ => show win0_16.index t (1 : Fin 2) * 3 + 1 * j.val = j.val; omega
  rw [View.read_apply, hemb]
  show out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) ((cfg0.win 16).xinj (grid0.coords t) (ix2 p j)) = _
  rw [hx]
  exact out_row_args m c t p j _ rfl

end Cert.KernelIdeal.ArrValue

end
-- ==== Proof.KernelArray.lean ====
/-
  The kernel's result array.  The 64 blocks of 4096 rows tile the 262144 rows: row `r` lies in the block of point
  `r / 4096`, every point writes its block back, and each block written is that block of one function of the
  arguments; so the array ends holding the network's outputs for every row, and the arguments are unchanged.
-/
import proofs.«128643_j23106924052863_2_alg».proof.Proof.Gen.KernelIdeal.Value
import proofs.«128643_j23106924052863_2_alg».proof.Proof.Spec
import proofs.«128643_j23106924052863_2_alg».proof.Proof.KernelArrBlocks
import proofs.«128643_j23106924052863_2_alg».proof.Proof.KernelArrFlushed
import Idealize.ShloMosaic.Lib.Pipeline.Value

noncomputable section

namespace Cert.KernelIdeal.ArrValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- An index of the result array is in point `t`'s block iff each coordinate is in the block's range on its axis. -/
theorem mem_blk (t : Fin cfg0.N) (i : S262144x3.Idx) :
    i ∈ ((cfg0.win 16).blk t).view.set ↔ ∀ a : Fin 2, win0_16.index t a * S4096x3.size a ≤ (i a).val ∧ (i a).val < win0_16.index t a * S4096x3.size a + S4096x3.size a := by
  show i ∈ ((View.whole main_v22).slice (win0_16.rect t)).set ↔ _
  rw [View.set_slice_whole, Rect.mem_set_unit]
  exact Iff.rfl

/-- Every index of the result array is in the block of the point its row falls in, and that point writes back. -/
theorem cover (i : S262144x3.Idx) :
    ∃ t : Fin cfg0.N, (cfg0.win 16).flush t = true ∧ i ∈ ((cfg0.win 16).blk t).view.set := by
  have hN : grid0.N = 64 := Gen.N_0
  have hi0 : (i 0).val < 262144 := (i 0).isLt
  have hi1 : (i 1).val < 3 := (i 1).isLt
  have hq : (i 0).val / 4096 < grid0.N := by rw [hN]; omega
  obtain ⟨-, -, -, -, -, -, -, -, -, -, -, -, -, -, -, -, -, -, -, -, -, -, -, -, -, -, -, -, -, -, -, -, -, e0, e1⟩ := idx_facts ⟨(i 0).val / 4096, hq⟩
  refine ⟨⟨(i 0).val / 4096, hq⟩, flush0_16 _, ?_⟩
  rw [mem_blk]
  intro a
  match a with
  | ⟨0, _⟩ =>
    show win0_16.index ⟨(i 0).val / 4096, hq⟩ (0 : Fin 2) * 4096 ≤ (i 0).val ∧ (i 0).val < win0_16.index ⟨(i 0).val / 4096, hq⟩ (0 : Fin 2) * 4096 + 4096
    rw [e0]
    show (i 0).val / 4096 * 4096 ≤ (i 0).val ∧ (i 0).val < (i 0).val / 4096 * 4096 + 4096
    omega
  | ⟨1, _⟩ =>
    show win0_16.index ⟨(i 0).val / 4096, hq⟩ (1 : Fin 2) * 3 ≤ (i 1).val ∧ (i 1).val < win0_16.index ⟨(i 0).val / 4096, hq⟩ (1 : Fin 2) * 3 + 3
    rw [e1]
    omega

/-- THE ARRAY after the run: the network's outputs for every row of the arguments. -/
theorem final (c : Dev nD) :
    (dats m 0 c).arrAt 16 cfg0.N
      = Cert.Lstm.G Cert.Lstm.sigT (Cert.Lstm.wtsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)))
          (m ((c : Thread nD τ).loc main_arg0)) (m ((c : Thread nD τ).loc main_arg1)) (m ((c : Thread nD τ).loc main_arg2)) :=
  (dats m 0 c).arrAt_eq_of_cover 16 _ (fun t _ => flushed_eq m c t) cover

/-- The kernel program's run: the result array at the network's outputs, the arguments unchanged. -/
theorem run : θ_run defs (onTc (τ := τ) (main (F := Ideal))) ⟨m, fun _ => 0, ρ⟩ fun r => ∀ c : Dev nD,
      r.2.mem ((c : Thread nD τ).loc main_v22)
        = Cert.Lstm.G Cert.Lstm.sigT (Cert.Lstm.wtsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)))
          (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (final m c), (h c).2⟩)
    (Cert.KernelIdeal.Value.run_blocks m ρ)

end Cert.KernelIdeal.ArrValue

end
-- ==== Proof.RefStep1.lean ====
/-
  The first recurrent step of the reference program, read row by row: the 256 pre-activations of row `r`
  are `Lstm.g1`, the new cell state `Lstm.c1` and the new hidden state `Lstm.h1` at the exponential
  spelling of the gate nonlinearity.
-/
import proofs.«128643_j23106924052863_2_alg».proof.Proof.Gen.ReferenceIdeal.Read
import proofs.«128643_j23106924052863_2_alg».proof.Proof.Spec

noncomputable section

namespace Cert.ReferenceIdeal.RefValue

open Cert.ReferenceIdeal Cert.ReferenceIdeal.Read Idealize.ShloMosaic Idealize.ShloMosaic.ValueIdx Cert.Lstm

/-- Row `r` of time slice `t` of the input sequence. -/
abbrev xrow (x0 : FVec Ideal S2x262144x5 .f32) (t : Fin 2) (r : Fin 262144) : Fin 5 → EReal := fun k => x0 (ix3 t r k)
/-- Row `r` of a state array. -/
abbrev srow (x : FVec Ideal S262144x64 .f32) (r : Fin 262144) : Fin 64 → EReal := fun k => x (ix2 r k)

/-! ## Where the operations of the first step read their operands -/

section idx
variable (r : Fin 262144)

/-- The first time slice, flattened to rows: element `(r, k)` is element `(0, r, k)` of the sequence. -/
theorem e_x0 (q : Fin 256) (k : Fin 5) : idx_main_v0 (idx_main_v1 (lidx_main_v3 (ix2 r q) k)) = ix3 0 r k :=
  funext fun a => Fin.ext (by
    match a with
    | ⟨0, _⟩ => rfl
    | ⟨1, _⟩ => show (r.val * 5 + k.val) / 5 % 262144 = r.val; omega
    | ⟨2, _⟩ => show (r.val * 5 + k.val) % 5 = k.val; omega)

theorem e_w3 (q : Fin 256) (k : Fin 5) : idx_main_v2 (ridx_main_v3 (ix2 r q) k) = ix2 q k :=
  funext fun a => match a with | ⟨0, _⟩ => rfl | ⟨1, _⟩ => rfl

theorem e_l5 (q : Fin 256) (k : Fin 64) : lidx_main_v5 (ix2 r q) k = ix2 r k :=
  funext fun a => match a with | ⟨0, _⟩ => rfl | ⟨1, _⟩ => rfl

theorem e_w4 (q : Fin 256) (k : Fin 64) : idx_main_v4 (ridx_main_v5 (ix2 r q) k) = ix2 q k :=
  funext fun a => match a with | ⟨0, _⟩ => rfl | ⟨1, _⟩ => rfl

theorem e_b9 (q : Fin 256) : idx_main_v8 (idx_main_v9 (ix2 r q)) = ix1 q :=
  funext fun a => match a with | ⟨0, _⟩ => rfl

/-- The four column groups of the pre-activations. -/
theorem e_s11 (q : Fin 64) : idx_main_v11 (ix2 r q) = ix2 r (col 0 (by decide) q) :=
  funext fun a => match a with | ⟨0, _⟩ => rfl | ⟨1, _⟩ => Fin.ext (Nat.zero_add _).symm
theorem e_s12 (q : Fin 64) : idx_main_v12 (ix2 r q) = ix2 r (col 64 (by decide) q) :=
  funext fun a => match a with | ⟨0, _⟩ => rfl | ⟨1, _⟩ => rfl
theorem e_s13 (q : Fin 64) : idx_main_v13 (ix2 r q) = ix2 r (col 128 (by decide) q) :=
  funext fun a => match a with | ⟨0, _⟩ => rfl | ⟨1, _⟩ => rfl
theorem e_s14 (q : Fin 64) : idx_main_v14 (ix2 r q) = ix2 r (col 192 (by decide) q) :=
  funext fun a => match a with | ⟨0, _⟩ => rfl | ⟨1, _⟩ => rfl

end idx

section
variable (x0 : FVec Ideal S2x262144x5 .f32) (x1 x2 : FVec Ideal S262144x64 .f32) (x3 : FVec Ideal S256x5 .f32)
  (x4 : FVec Ideal S256x64 .f32) (x5 x6 : FVec Ideal S256 .f32) (x7 : FVec Ideal S256x64 .f32) (x8 : FVec Ideal S256 .f32)
  (x9 : FVec Ideal S64x256 .f32) (x10 : FVec Ideal S64 .f32) (x11 : FVec Ideal S32x64 .f32) (x12 : FVec Ideal S32 .f32)
  (x13 : FVec Ideal S16x32 .f32) (x14 : FVec Ideal S16 .f32) (x15 : FVec Ideal S3x16 .f32) (x16 : FVec Ideal S3 .f32)

local notation "𝐖" => wtsOf x3 x4 x5 x6 x7 x8 x9 x10 x11 x12 x13 x14 x15 x16

/-- The pre-activations of the first step. -/
theorem v10_row (r : Fin 262144) (q : Fin 256) :
    val_main_v10 (F := Ideal) x0 x1 x3 x4 x5 x6 (ix2 r q) = g1 𝐖 (xrow x0 0 r) (srow x1 r) q := by
  rw [val_main_v10_apply, val_main_v6_apply, val_main_v3_apply, val_main_v5_apply, val_main_v9_apply, val_main_v8_apply,
    val_main_v7_apply]
  simp only [val_main_v1_apply, val_main_v0_apply, val_main_v2_apply, val_main_v4_apply, e_x0, e_w3, e_l5, e_w4, e_b9]
  rfl

/-- The cell state after the first step. -/
theorem v36_row (r : Fin 262144) (q : Fin 64) :
    val_main_v36 (F := Ideal) x0 x1 x2 x3 x4 x5 x6 (ix2 r q)
      = c1 sigE 𝐖 (xrow x0 0 r) (srow x1 r) (srow x2 r) q := by
  simp only [val_main_v36_apply, val_main_v34_apply, val_main_v35_apply, val_main_v26_apply, val_main_v25_apply,
    val_main_v24_apply, val_main_v23_apply, val_main_v22_apply, val_main_v21_apply, val_main_v12_apply,
    val_main_v20_apply, val_main_v19_apply, val_main_v18_apply, val_main_v17_apply, val_main_v16_apply,
    val_main_v15_apply, val_main_v11_apply, val_main_v27_apply, val_main_v13_apply,
    val_main_cst_apply, val_main_cst_0_apply, val_main_cst_1_apply, val_main_cst_2_apply,
    e_s11, e_s12, e_s13, v10_row x0 x1 x3 x4 x5 x6 x7 x8 x9 x10 x11 x12 x13 x14 x15 x16]
  rfl

/-- The hidden state after the first step. -/
theorem v38_row (r : Fin 262144) (q : Fin 64) :
    val_main_v38 (F := Ideal) x0 x1 x2 x3 x4 x5 x6 (ix2 r q)
      = h1 sigE 𝐖 (xrow x0 0 r) (srow x1 r) (srow x2 r) q := by
  simp only [val_main_v38_apply, val_main_v37_apply, val_main_v33_apply, val_main_v32_apply, val_main_v31_apply,
    val_main_v30_apply, val_main_v29_apply, val_main_v28_apply, val_main_v14_apply,
    val_main_cst_3_apply, val_main_cst_4_apply,
    e_s14, v10_row x0 x1 x3 x4 x5 x6 x7 x8 x9 x10 x11 x12 x13 x14 x15 x16,
    v36_row x0 x1 x2 x3 x4 x5 x6 x7 x8 x9 x10 x11 x12 x13 x14 x15 x16]
  rfl

end

end Cert.ReferenceIdeal.RefValue
-- ==== Proof.RefStep2.lean ====
/-
  The second recurrent step of the reference program, read row by row: its pre-activations are `Lstm.g2`
  (the first step's hidden state contracted with the recurrent weights), its cell state is the cell update of
  those pre-activations over the first step's cell state, and its hidden state is `Lstm.h2`.
-/
import proofs.«128643_j23106924052863_2_alg».proof.Proof.RefStep1

noncomputable section

namespace Cert.ReferenceIdeal.RefValue

open Cert.ReferenceIdeal Cert.ReferenceIdeal.Read Idealize.ShloMosaic Idealize.ShloMosaic.ValueIdx Cert.Lstm

/-! ## Where the operations of the second step read their operands -/

section idx
variable (r : Fin 262144)

/-- The second time slice, flattened to rows: element `(r, k)` is element `(1, r, k)` of the sequence. -/
theorem e_x1 (q : Fin 256) (k : Fin 5) : idx_main_v39 (idx_main_v40 (lidx_main_v42 (ix2 r q) k)) = ix3 1 r k :=
  funext fun a => Fin.ext (by
    match a with
    | ⟨0, _⟩ => rfl
    | ⟨1, _⟩ => show (r.val * 5 + k.val) / 5 % 262144 = r.val; omega
    | ⟨2, _⟩ => show (r.val * 5 + k.val) % 5 = k.val; omega)

theorem e_w41 (q : Fin 256) (k : Fin 5) : idx_main_v41 (ridx_main_v42 (ix2 r q) k) = ix2 q k :=
  funext fun a => match a with | ⟨0, _⟩ => rfl | ⟨1, _⟩ => rfl

theorem e_l44 (q : Fin 256) (k : Fin 64) : lidx_main_v44 (ix2 r q) k = ix2 r k :=
  funext fun a => match a with | ⟨0, _⟩ => rfl | ⟨1, _⟩ => rfl

theorem e_w43 (q : Fin 256) (k : Fin 64) : idx_main_v43 (ridx_main_v44 (ix2 r q) k) = ix2 q k :=
  funext fun a => match a with | ⟨0, _⟩ => rfl | ⟨1, _⟩ => rfl

theorem e_b48 (q : Fin 256) : idx_main_v47 (idx_main_v48 (ix2 r q)) = ix1 q :=
  funext fun a => match a with | ⟨0, _⟩ => rfl

/-- The four column groups of the pre-activations. -/
theorem e_s50 (q : Fin 64) : idx_main_v50 (ix2 r q) = ix2 r (col 0 (by decide) q) :=
  funext fun a => match a with | ⟨0, _⟩ => rfl | ⟨1, _⟩ => Fin.ext (Nat.zero_add _).symm
theorem e_s51 (q : Fin 64) : idx_main_v51 (ix2 r q) = ix2 r (col 64 (by decide) q) :=
  funext fun a => match a with | ⟨0, _⟩ => rfl | ⟨1, _⟩ => rfl
theorem e_s52 (q : Fin 64) : idx_main_v52 (ix2 r q) = ix2 r (col 128 (by decide) q) :=
  funext fun a => match a with | ⟨0, _⟩ => rfl | ⟨1, _⟩ => rfl
theorem e_s53 (q : Fin 64) : idx_main_v53 (ix2 r q) = ix2 r (col 192 (by decide) q) :=
  funext fun a => match a with | ⟨0, _⟩ => rfl | ⟨1, _⟩ => rfl

end idx

section
variable (x0 : FVec Ideal S2x262144x5 .f32) (x1 x2 : FVec Ideal S262144x64 .f32) (x3 : FVec Ideal S256x5 .f32)
  (x4 : FVec Ideal S256x64 .f32) (x5 x6 : FVec Ideal S256 .f32) (x7 : FVec Ideal S256x64 .f32) (x8 : FVec Ideal S256 .f32)
  (x9 : FVec Ideal S64x256 .f32) (x10 : FVec Ideal S64 .f32) (x11 : FVec Ideal S32x64 .f32) (x12 : FVec Ideal S32 .f32)
  (x13 : FVec Ideal S16x32 .f32) (x14 : FVec Ideal S16 .f32) (x15 : FVec Ideal S3x16 .f32) (x16 : FVec Ideal S3 .f32)

local notation "𝐖" => wtsOf x3 x4 x5 x6 x7 x8 x9 x10 x11 x12 x13 x14 x15 x16

/-- The pre-activations of the second step. -/
theorem v49_row (r : Fin 262144) (q : Fin 256) :
    val_main_v49 (F := Ideal) x0 x1 x2 x3 x4 x5 x6 (ix2 r q)
      = g2 sigE 𝐖 (xrow x0 0 r) (xrow x0 1 r) (srow x1 r) (srow x2 r) q := by
  rw [val_main_v49_apply, val_main_v45_apply, val_main_v42_apply, val_main_v44_apply, val_main_v48_apply, val_main_v47_apply,
    val_main_v46_apply]
  simp only [val_main_v40_apply, val_main_v39_apply, val_main_v41_apply, val_main_v43_apply, e_x1, e_w41, e_l44, e_w43, e_b48,
    v38_row x0 x1 x2 x3 x4 x5 x6 x7 x8 x9 x10 x11 x12 x13 x14 x15 x16]
  rfl

/-- The cell state after the second step. -/
theorem v75_row (r : Fin 262144) (q : Fin 64) :
    val_main_v75 (F := Ideal) x0 x1 x2 x3 x4 x5 x6 (ix2 r q)
      = cellNext sigE (g2 sigE 𝐖 (xrow x0 0 r) (xrow x0 1 r) (srow x1 r) (srow x2 r))
          (c1 sigE 𝐖 (xrow x0 0 r) (srow x1 r) (srow x2 r)) q := by
  simp only [val_main_v75_apply, val_main_v73_apply, val_main_v74_apply, val_main_v65_apply, val_main_v64_apply,
    val_main_v63_apply, val_main_v62_apply, val_main_v61_apply, val_main_v60_apply, val_main_v51_apply,
    val_main_v59_apply, val_main_v58_apply, val_main_v57_apply, val_main_v56_apply, val_main_v55_apply,
    val_main_v54_apply, val_main_v50_apply, val_main_v66_apply, val_main_v52_apply,
    val_main_cst_5_apply, val_main_cst_6_apply, val_main_cst_7_apply, val_main_cst_8_apply,
    e_s50, e_s51, e_s52, v49_row x0 x1 x2 x3 x4 x5 x6 x7 x8 x9 x10 x11 x12 x13 x14 x15 x16, v36_row x0 x1 x2 x3 x4 x5 x6 x7 x8 x9 x10 x11 x12 x13 x14 x15 x16]
  rfl

/-- The hidden state after the second step. -/
theorem v77_row (r : Fin 262144) (q : Fin 64) :
    val_main_v77 (F := Ideal) x0 x1 x2 x3 x4 x5 x6 (ix2 r q)
      = h2 sigE 𝐖 (xrow x0 0 r) (xrow x0 1 r) (srow x1 r) (srow x2 r) q := by
  simp only [val_main_v77_apply, val_main_v76_apply, val_main_v72_apply, val_main_v71_apply, val_main_v70_apply,
    val_main_v69_apply, val_main_v68_apply, val_main_v67_apply, val_main_v53_apply,
    val_main_cst_9_apply, val_main_cst_10_apply,
    e_s53, v49_row x0 x1 x2 x3 x4 x5 x6 x7 x8 x9 x10 x11 x12 x13 x14 x15 x16, v75_row x0 x1 x2 x3 x4 x5 x6 x7 x8 x9 x10 x11 x12 x13 x14 x15 x16]
  rfl

end

end Cert.ReferenceIdeal.RefValue
-- ==== Proof.RefMlp.lean ====
/-
  The layers after the recurrence in the reference program, read row by row: the rectifier of the last hidden
  state, four rectified affine layers and the affine head of three columns are `Lstm.a0` … `Lstm.a4` and
  `Lstm.rowOut`.
-/
import proofs.«128643_j23106924052863_2_alg».proof.Proof.RefStep2

noncomputable section

namespace Cert.ReferenceIdeal.RefValue

open Cert.ReferenceIdeal Cert.ReferenceIdeal.Read Idealize.ShloMosaic Idealize.ShloMosaic.ValueIdx Cert.Lstm

/-! ## Where the contractions and the bias broadcasts read their operands -/

section idx
variable (r : Fin 262144)

theorem e_l80 (q : Fin 256) (k : Fin 64) : lidx_main_v80 (ix2 r q) k = ix2 r k :=
  funext fun a => match a with | ⟨0, _⟩ => rfl | ⟨1, _⟩ => rfl
theorem e_w79 (q : Fin 256) (k : Fin 64) : idx_main_v79 (ridx_main_v80 (ix2 r q) k) = ix2 q k :=
  funext fun a => match a with | ⟨0, _⟩ => rfl | ⟨1, _⟩ => rfl
theorem e_b82 (q : Fin 256) : idx_main_v81 (idx_main_v82 (ix2 r q)) = ix1 q :=
  funext fun a => match a with | ⟨0, _⟩ => rfl

theorem e_l86 (q : Fin 64) (k : Fin 256) : lidx_main_v86 (ix2 r q) k = ix2 r k :=
  funext fun a => match a with | ⟨0, _⟩ => rfl | ⟨1, _⟩ => rfl
theorem e_w85 (q : Fin 64) (k : Fin 256) : idx_main_v85 (ridx_main_v86 (ix2 r q) k) = ix2 q k :=
  funext fun a => match a with | ⟨0, _⟩ => rfl | ⟨1, _⟩ => rfl
theorem e_b88 (q : Fin 64) : idx_main_v87 (idx_main_v88 (ix2 r q)) = ix1 q :=
  funext fun a => match a with | ⟨0, _⟩ => rfl

theorem e_l92 (q : Fin 32) (k : Fin 64) : lidx_main_v92 (ix2 r q) k = ix2 r k :=
  funext fun a => match a with | ⟨0, _⟩ => rfl | ⟨1, _⟩ => rfl
theorem e_w91 (q : Fin 32) (k : Fin 64) : idx_main_v91 (ridx_main_v92 (ix2 r q) k) = ix2 q k :=
  funext fun a => match a with | ⟨0, _⟩ => rfl | ⟨1, _⟩ => rfl
theorem e_b94 (q : Fin 32) : idx_main_v93 (idx_main_v94 (ix2 r q)) = ix1 q :=
  funext fun a => match a with | ⟨0, _⟩ => rfl

theorem e_l98 (q : Fin 16) (k : Fin 32) : lidx_main_v98 (ix2 r q) k = ix2 r k :=
  funext fun a => match a with | ⟨0, _⟩ => rfl | ⟨1, _⟩ => rfl
theorem e_w97 (q : Fin 16) (k : Fin 32) : idx_main_v97 (ridx_main_v98 (ix2 r q) k) = ix2 q k :=
  funext fun a => match a with | ⟨0, _⟩ => rfl | ⟨1, _⟩ => rfl
theorem e_b100 (q : Fin 16) : idx_main_v99 (idx_main_v100 (ix2 r q)) = ix1 q :=
  funext fun a => match a with | ⟨0, _⟩ => rfl

theorem e_l104 (q : Fin 3) (k : Fin 16) : lidx_main_v104 (ix2 r q) k = ix2 r k :=
  funext fun a => match a with | ⟨0, _⟩ => rfl | ⟨1, _⟩ => rfl
theorem e_w103 (q : Fin 3) (k : Fin 16) : idx_main_v103 (ridx_main_v104 (ix2 r q) k) = ix2 q k :=
  funext fun a => match a with | ⟨0, _⟩ => rfl | ⟨1, _⟩ => rfl
theorem e_b106 (q : Fin 3) : idx_main_v105 (idx_main_v106 (ix2 r q)) = ix1 q :=
  funext fun a => match a with | ⟨0, _⟩ => rfl

end idx

section
variable (x0 : FVec Ideal S2x262144x5 .f32) (x1 x2 : FVec Ideal S262144x64 .f32) (x3 : FVec Ideal S256x5 .f32)
  (x4 : FVec Ideal S256x64 .f32) (x5 x6 : FVec Ideal S256 .f32) (x7 : FVec Ideal S256x64 .f32) (x8 : FVec Ideal S256 .f32)
  (x9 : FVec Ideal S64x256 .f32) (x10 : FVec Ideal S64 .f32) (x11 : FVec Ideal S32x64 .f32) (x12 : FVec Ideal S32 .f32)
  (x13 : FVec Ideal S16x32 .f32) (x14 : FVec Ideal S16 .f32) (x15 : FVec Ideal S3x16 .f32) (x16 : FVec Ideal S3 .f32)

local notation "𝐖" => wtsOf x3 x4 x5 x6 x7 x8 x9 x10 x11 x12 x13 x14 x15 x16

/-- The rectifier of the last hidden state. -/
theorem v78_row (r : Fin 262144) (q : Fin 64) :
    val_main_v78 (F := Ideal) x0 x1 x2 x3 x4 x5 x6 (ix2 r q)
      = a0 sigE 𝐖 (xrow x0 0 r) (xrow x0 1 r) (srow x1 r) (srow x2 r) q := by
  simp only [val_main_v78_apply, val_main_call0_v0_apply, val_main_call0_cst_apply, v77_row x0 x1 x2 x3 x4 x5 x6 x7 x8 x9 x10 x11 x12 x13 x14 x15 x16]
  rfl

/-- The first rectified affine layer. -/
theorem v84_row (r : Fin 262144) (q : Fin 256) :
    val_main_v84 (F := Ideal) x0 x1 x2 x3 x4 x5 x6 x7 x8 (ix2 r q)
      = a1 sigE 𝐖 (xrow x0 0 r) (xrow x0 1 r) (srow x1 r) (srow x2 r) q := by
  simp only [val_main_v84_apply, val_main_v83_apply, val_main_v80_apply, val_main_v82_apply,
    val_main_v81_apply, val_main_v79_apply, val_main_call1_v0_apply, val_main_call1_cst_apply,
    e_l80, e_w79, e_b82, v78_row x0 x1 x2 x3 x4 x5 x6 x7 x8 x9 x10 x11 x12 x13 x14 x15 x16]
  rfl

/-- The second rectified affine layer. -/
theorem v90_row (r : Fin 262144) (q : Fin 64) :
    val_main_v90 (F := Ideal) x0 x1 x2 x3 x4 x5 x6 x7 x8 x9 x10 (ix2 r q)
      = a2 sigE 𝐖 (xrow x0 0 r) (xrow x0 1 r) (srow x1 r) (srow x2 r) q := by
  simp only [val_main_v90_apply, val_main_v89_apply, val_main_v86_apply, val_main_v88_apply,
    val_main_v87_apply, val_main_v85_apply, val_main_call2_v0_apply, val_main_call2_cst_apply,
    e_l86, e_w85, e_b88, v84_row x0 x1 x2 x3 x4 x5 x6 x7 x8 x9 x10 x11 x12 x13 x14 x15 x16]
  rfl

/-- The third rectified affine layer. -/
theorem v96_row (r : Fin 262144) (q : Fin 32) :
    val_main_v96 (F := Ideal) x0 x1 x2 x3 x4 x5 x6 x7 x8 x9 x10 x11 x12 (ix2 r q)
      = a3 sigE 𝐖 (xrow x0 0 r) (xrow x0 1 r) (srow x1 r) (srow x2 r) q := by
  simp only [val_main_v96_apply, val_main_v95_apply, val_main_v92_apply, val_main_v94_apply,
    val_main_v93_apply, val_main_v91_apply, val_main_call3_v0_apply, val_main_call3_cst_apply,
    e_l92, e_w91, e_b94, v90_row x0 x1 x2 x3 x4 x5 x6 x7 x8 x9 x10 x11 x12 x13 x14 x15 x16]
  rfl

/-- The fourth rectified affine layer. -/
theorem v102_row (r : Fin 262144) (q : Fin 16) :
    val_main_v102 (F := Ideal) x0 x1 x2 x3 x4 x5 x6 x7 x8 x9 x10 x11 x12 x13 x14 (ix2 r q)
      = a4 sigE 𝐖 (xrow x0 0 r) (xrow x0 1 r) (srow x1 r) (srow x2 r) q := by
  simp only [val_main_v102_apply, val_main_v101_apply, val_main_v98_apply, val_main_v100_apply,
    val_main_v99_apply, val_main_v97_apply, val_main_call4_v0_apply, val_main_call4_cst_apply,
    e_l98, e_w97, e_b100, v96_row x0 x1 x2 x3 x4 x5 x6 x7 x8 x9 x10 x11 x12 x13 x14 x15 x16]
  rfl

/-- The affine head: the three outputs of a row. -/
theorem v107_row (r : Fin 262144) (q : Fin 3) :
    val_main_v107 (F := Ideal) x0 x1 x2 x3 x4 x5 x6 x7 x8 x9 x10 x11 x12 x13 x14 x15 x16 (ix2 r q)
      = rowOut sigE 𝐖 (xrow x0 0 r) (xrow x0 1 r) (srow x1 r) (srow x2 r) q := by
  simp only [val_main_v107_apply, val_main_v104_apply, val_main_v106_apply, val_main_v105_apply, val_main_v103_apply,
    e_l104, e_w103, e_b106, v102_row x0 x1 x2 x3 x4 x5 x6 x7 x8 x9 x10 x11 x12 x13 x14 x15 x16]
  rfl

end

end Cert.ReferenceIdeal.RefValue
-- ==== Proof.RefValue.lean ====
/-
  The reference program's result array is the row function `Lstm.G` at the exponential spelling of the gate
  nonlinearity: entry `(r, j)` is output `j` of row `r`.
-/
import proofs.«128643_j23106924052863_2_alg».proof.Proof.RefMlp

noncomputable section

namespace Cert.ReferenceIdeal.RefValue

open Cert.ReferenceIdeal Cert.ReferenceIdeal.Read Idealize.ShloMosaic Idealize.ShloMosaic.ValueIdx Cert.Lstm

theorem ref_eq (x0 : FVec Ideal S2x262144x5 .f32) (x1 x2 : FVec Ideal S262144x64 .f32) (x3 : FVec Ideal S256x5 .f32) (x4 : FVec Ideal S256x64 .f32) (x5 x6 : FVec Ideal S256 .f32) (x7 : FVec Ideal S256x64 .f32) (x8 : FVec Ideal S256 .f32) (x9 : FVec Ideal S64x256 .f32) (x10 : FVec Ideal S64 .f32) (x11 : FVec Ideal S32x64 .f32) (x12 : FVec Ideal S32 .f32) (x13 : FVec Ideal S16x32 .f32) (x14 : FVec Ideal S16 .f32) (x15 : FVec Ideal S3x16 .f32) (x16 : FVec Ideal S3 .f32) :
    Cert.ReferenceIdeal.Read.val_main_v107 (F := Ideal) x0 x1 x2 x3 x4 x5 x6 x7 x8 x9 x10 x11 x12 x13 x14 x15 x16
      = Cert.Lstm.G Cert.Lstm.sigE (Cert.Lstm.wtsOf x3 x4 x5 x6 x7 x8 x9 x10 x11 x12 x13 x14 x15 x16) x0 x1 x2 := by
  funext i
  obtain ⟨r, q, rfl⟩ : ∃ (r : Fin 262144) (q : Fin 3), i = ix2 r q := ⟨i 0, i 1, eq_ix2 i⟩
  rw [v107_row]
  rfl

end Cert.ReferenceIdeal.RefValue
-- ==== Proof.lean ====
/-
  A two-step LSTM over 262144 independent rows followed by four rectified affine layers and a three-column
  head, computed block by block (64 blocks of 4096 rows) against the same network computed on whole arrays.

  Both programs, read on the extended reals, end with the result array `Cert.Lstm.G σ` of the arguments
  (Proof/Spec.lean): entry `(r, j)` is output `j` of the network on row `r`.  The blockwise program spells
  the gate nonlinearity `σ x = ½ · tanh (½ · x) + ½`, the whole-array program `σ x = 1 / (1 + e⁻ˣ)`; these
  are one function on the extended reals, infinities included (Proof/Sigma.lean), so no finiteness of the
  inputs is used.  Sums are taken in the same order on both sides (each matrix product over its contracted
  axis, products added before the bias), so no law of addition is needed either.

  Proof/KernelMatmul.lean, KernelStep.lean, KernelMlp.lean, KernelRow.lean: what one block's store holds at a
  row.  Proof/KernelArr*.lean, KernelArray.lean: the blocks tile the result array, and the host
  transpositions in front of the launch turn the argument arrays into the blocks' layouts.
  Proof/Ref*.lean, RefValue.lean: the whole-array program's operations compose to the same function.
  The rounding to a narrower float format before each product is the identity on the extended reals, and the
  idealization rewrote no operation, so the preservation claim has no conjunct.
-/
import proofs.«128643_j23106924052863_2_alg».proof.Defs
import proofs.«128643_j23106924052863_2_alg».proof.Proof.Gen.Kernel
import proofs.«128643_j23106924052863_2_alg».proof.Proof.Gen.Kernel.Skeleton
import proofs.«128643_j23106924052863_2_alg».proof.Proof.Gen.Kernel.Launch
import proofs.«128643_j23106924052863_2_alg».proof.Proof.Gen.Kernel.Points
import proofs.«128643_j23106924052863_2_alg».proof.Proof.Gen.Kernel.Frame
import proofs.«128643_j23106924052863_2_alg».proof.Proof.Gen.KernelIdeal
import proofs.«128643_j23106924052863_2_alg».proof.Proof.Gen.KernelIdeal.Skeleton
import proofs.«128643_j23106924052863_2_alg».proof.Proof.Gen.KernelIdeal.Launch
import proofs.«128643_j23106924052863_2_alg».proof.Proof.Gen.KernelIdeal.Points
import proofs.«128643_j23106924052863_2_alg».proof.Proof.Gen.KernelIdeal.Frame
import proofs.«128643_j23106924052863_2_alg».proof.Proof.Gen.ReferenceIdeal
import proofs.«128643_j23106924052863_2_alg».proof.Proof.Gen.Pre_finite_inputs
import proofs.«128643_j23106924052863_2_alg».proof.Proof.Gen.KernelIdeal.Value
import proofs.«128643_j23106924052863_2_alg».proof.Proof.Gen.ReferenceIdeal.Run
import proofs.«128643_j23106924052863_2_alg».proof.Proof.Gen.ReferenceIdeal.Read
import proofs.«128643_j23106924052863_2_alg».proof.Proof.Sigma
import proofs.«128643_j23106924052863_2_alg».proof.Proof.KernelArray
import proofs.«128643_j23106924052863_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The whole-array program's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the network's result array of the (agreeing) arguments; the two spellings of the gate
    nonlinearity are one function. -/
theorem algebraic : Cert.algebraic_KernelIdeal_ReferenceIdeal := by
  intro m ρ m' ρ' _ hagree
  refine ⟨fun c => Cert.Lstm.G Cert.Lstm.sigT (Cert.Lstm.wtsOf (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16⟩ := hagree c
  rw [Cert.ReferenceIdeal.Read.val_main_v107_eq, Cert.ReferenceIdeal.RefValue.ref_eq, ← Cert.Lstm.sigT_eq_sigE,
    h0, h1, h2, h3, h4, h5, h6, h7, h8, h9, h10, h11, h12, h13, h14, h15, h16]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
